-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x1 : Shape := ⟨3, ![8, 2048, 1]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn_part1 {F : FTy → Type} [FloatOps F] (main_arg3 : IVec S8x2048x1 32) (main_v13 : IVec S_ 1) (main_v15 : IVec S8x2048x1 1) (main_c_5 : IVec S_ 32) : IVec S_ 1 :=
  let main_v16 : IVec S8x2048x1 32 := broadcastInDim S8x2048x1 ![] bcast_S_S8x2048x1 main_c_5
  let main_v17 : IVec S8x2048x1 1 := cmpi .eq main_arg3 main_v16
  let main_v18 : IVec S8x2048x1 1 := ori main_v15 main_v17
  let main_c_6 : IVec S_ 1 := constantI S_ 1 1#1
  let main_v19 : IVec S_ 1 := (fun x v => Host.reduce IntOp.andi x v reducesTo_S8x2048x1_S_d0_1_2 h_S_) main_v18 main_c_6
  let main_v20 : IVec S_ 1 := andi main_v13 main_v19
  main_v20

def fn {F : FTy → Type} [FloatOps F] (main_arg0 : FVec F S8x2048x1024 .f32) (main_arg1 : FVec F S8x2048x1024 .f32) (main_arg2 : FVec F S8x2048x1024 .f32) (main_arg3 : IVec S8x2048x1 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_c_4 : IVec S_ 32 := constantI S_ 32 0#32
  let main_v14 : IVec S8x2048x1 32 := broadcastInDim S8x2048x1 ![] bcast_S_S8x2048x1 main_c_4
  let main_v15 : IVec S8x2048x1 1 := cmpi .eq main_arg3 main_v14
  let main_c_5 : IVec S_ 32 := constantI S_ 32 1#32
  fn_part1 (F := F) main_arg3 main_v13 main_v15 main_c_5
-- ==== Kernel.lean ====
abbrev S8x2048x1024 : Shape := ⟨3, ![8, 2048, 1024]⟩
abbrev S8x2048x1 : Shape := ⟨3, ![8, 2048, 1]⟩
abbrev S8x1x2048 : Shape := ⟨3, ![8, 1, 2048]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1x512 : Shape := ⟨3, ![1, 1, 512]⟩
abbrev S1024x1 : Shape := ⟨2, ![1024, 1]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S1024 : Shape := ⟨1, ![1024]⟩

abbrev nBuf : Space → Nat
  | .hbm => 6
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1, .i32⟩
  | .hbm, ⟨4, _⟩ => ⟨S8x1x2048, .i32⟩
  | .hbm, ⟨5, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1, .i32⟩
  | .local _ .vmem, ⟨7, _⟩ => ⟨S1x1024x1, .i32⟩
  | .local _ .vmem, ⟨8, _⟩ => ⟨S1x1x512, .i32⟩
  | .local _ .vmem, ⟨9, _⟩ => ⟨S1x1x512, .i32⟩
  | .local _ .vmem, ⟨10, _⟩ => ⟨S1x1024x1024, .f32⟩
  | .local _ .vmem, ⟨11, _⟩ => ⟨S1x1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_32 : BitVec 32 := 0#32
  let v55 : BitVec 1 := Scalar.cmpi .ne v54 c0_i32_32
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  transposes_S8x2048x1_S8x1x2048_0_2_1 : S8x2048x1.Transposes [0, 2, 1] S8x1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1024x1_S1024x512 : S1024x1.Broadcasts S1024x512
  broadcasts_S1x512_S1024x512 : S1x512.Broadcasts S1024x512
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x1024 : S1024x1.Broadcasts S1024x1024
  natLt_1_32 : 1 < 32
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S8x2048x1.size a
  hwx0_3 : ∀ i : grid0.Coords, EltTy.bits .i32 = 32 ∨ (Rect.block (s := S8x2048x1) S1x1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x2048.size a
  hwx0_4 : ∀ i : grid0.Coords, EltTy.bits .i32 = 32 ∨ (Rect.block (s := S8x1x2048) S1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .f32 = 32 ∨ (Rect.block (s := S8x2048x1024) S1x1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1, .i32⟩
  | .hbm, ⟨4, _⟩ => ⟨S8x2048x1, .f32⟩
  | .hbm, ⟨5, _⟩ => ⟨S8x1x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .i1⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S8x2048x1_S8x1x2048 : S8x2048x1.ShapeCasts S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Masked attention, one output entry at a time, over the extended reals.

  The arrays: queries Q, keys K and values V of shape [8, 2048, 1024], and an integer mask word per position, R of shape
  [8, 2048, 1]. For batch b, query position r and key position k the pair mask is the product of the two positions'
  mask words read as reals, and the masked score is the contraction of query r with key k times the pair mask,

      s(r, k) = (Σ_d Q[b,r,d] · K[b,k,d]) · mask(r, k).

  The row maximum M(r) is the fold of max over all keys from −∞. The weight of key k is exp(s(r,k) − M(r)) · mask(r,k);
  the row sum L(r) is the sum of the weights; the denominator is L(r) + [L(r) = 0] + ε, ε the binary32 word 0x1E3CE508;
  and the output entry is the sum over keys of (weight / denominator) · V[b,k,d].
-/
import Idealize.ShloMosaic.PureOps.Ideal
import Idealize.ShloMosaic.Lib.ValueIdx

noncomputable section

namespace Cert.MaskedAttn

open Idealize.ShloMosaic Idealize.ShloMosaic.ValueIdx

/-- The shape of the queries, the keys, the values and the result. -/
abbrev SQ : Shape := ⟨3, ![8, 2048, 1024]⟩
/-- The shape of the mask words. -/
abbrev SM : Shape := ⟨3, ![8, 2048, 1]⟩

/-- The mask word of position `k` of batch `b`, read as a signed integer, as an extended real. -/
def maskWord (R : SM.Idx → BitVec 32) (b : Fin 8) (k : Fin 2048) : EReal :=
  (((R (ix3 b k (0 : Fin 1))).toInt : ℝ) : EReal)

/-- The pair mask of query position `r` and key position `k`. -/
def pairMask (R : SM.Idx → BitVec 32) (b : Fin 8) (r k : Fin 2048) : EReal :=
  maskWord R b r * maskWord R b k

/-- The contraction of query `r` with key `k`. -/
def rawScore (Q K : SQ.Idx → EReal) (b : Fin 8) (r k : Fin 2048) : EReal :=
  ∑ d : Fin 1024, Q (ix3 b r d) * K (ix3 b k d)

/-- The masked score. -/
def score (Q K : SQ.Idx → EReal) (R : SM.Idx → BitVec 32) (b : Fin 8) (r k : Fin 2048) : EReal :=
  rawScore Q K b r k * pairMask R b r k

/-- The row maximum of the masked scores, folded from −∞. -/
def rowMax (Q K : SQ.Idx → EReal) (R : SM.Idx → BitVec 32) (b : Fin 8) (r : Fin 2048) : EReal :=
  (Finset.univ : Finset (Fin 2048)).fold max ⊥ (fun k => score Q K R b r k)

/-- The masked exponential weight of key `k` in row `r`. -/
def weight (Q K : SQ.Idx → EReal) (R : SM.Idx → BitVec 32) (b : Fin 8) (r k : Fin 2048) : EReal :=
  Ideal.exp (score Q K R b r k - rowMax Q K R b r) * pairMask R b r k

/-- The row's sum of weights. -/
def rowSum (Q K : SQ.Idx → EReal) (R : SM.Idx → BitVec 32) (b : Fin 8) (r : Fin 2048) : EReal :=
  ∑ k : Fin 2048, weight Q K R b r k

/-- One where the argument is zero, zero elsewhere. -/
def zeroInd (x : EReal) : EReal := if x = 0 then 1 else 0

/-- The small positive constant of the denominator. -/
def eps : EReal := Ideal.ofBits .f32 0x1E3CE508#32

/-- The denominator made from a row sum. -/
def denomOf (L : EReal) : EReal := L + zeroInd L + eps

/-- One entry of the result: every weight divided by the denominator, then contracted with the value column. -/
def outEntry (Q K V : SQ.Idx → EReal) (R : SM.Idx → BitVec 32) (b : Fin 8) (r : Fin 2048) (d : Fin 1024) : EReal :=
  ∑ k : Fin 2048, Ideal.div (weight Q K R b r k) (denomOf (rowSum Q K R b r)) * V (ix3 b k d)

/-- The whole result array. -/
def result (Q K V : SQ.Idx → EReal) (R : SM.Idx → BitVec 32) : SQ.Idx → EReal :=
  fun i => outEntry Q K V R (i 0) (i 1) (i 2)

theorem result_ix3 (Q K V : SQ.Idx → EReal) (R : SM.Idx → BitVec 32) (b : Fin 8) (r : Fin 2048) (d : Fin 1024) :
    result Q K V R (ix3 b r d) = outEntry Q K V R b r d := rfl

/-- What the precondition gives: every query, key and value entry is a real number, and every mask word is 0 or 1. -/
structure Domain (Q K V : SQ.Idx → EReal) (R : SM.Idx → BitVec 32) : Prop where
  finQ : ∀ i, Q i ≠ ⊤ ∧ Q i ≠ ⊥
  finK : ∀ i, K i ≠ ⊤ ∧ K i ≠ ⊥
  finV : ∀ i, V i ≠ ⊤ ∧ V i ≠ ⊥
  bin : ∀ i, R i = 0#32 ∨ R i = 1#32

end Cert.MaskedAttn

end
-- ==== Proof.RefValue.lean ====
/-
  The reference program's value is the masked-attention specification, entry by entry.

  Every operation of the reference is read at an index with literal coordinates (b, r, k) or (b, r, d), bottom-up:
  the pair mask, the contraction of a query with a key, the masked score, the row maximum as a fold of max from −∞,
  the masked exponential weight, the row sum, the indicator of a zero row sum, the denominator, the quotient, and
  last the contraction of the quotients with the value column. No finiteness or mask hypothesis enters: the
  specification is written in the reference's own arrangement, so each step is an identity of extended reals.
-/
import proofs.«164388_j89481348645697_2_alg».proof.Proof.Spec
import proofs.«164388_j89481348645697_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal.Gen Cert.MaskedAttn

/-- The float arrays of the program: queries, keys, values, result. -/
abbrev FArr : Type := (⟨S8x2048x1024, .f32⟩ : BufTy).Contents (Elt Ideal)
/-- The array of mask words. -/
abbrev MArr : Type := (⟨S8x2048x1, .i32⟩ : BufTy).Contents (Elt Ideal)

/-! ## The pair mask -/

/-- The converted mask word at (b, k, 0) is the specification's mask word. -/
theorem v0_at (x3 : MArr) (b : Fin 8) (k : Fin 2048) (z : Fin 1) :
    Read.val_main_v0 (F := Ideal) x3 (ix3 b k z) = maskWord x3 b k := by
  obtain rfl : z = 0 := Subsingleton.elim _ _
  rfl

/-- The column broadcast reads the row position's word. -/
theorem idx_v2_at (b : Fin 8) (r k : Fin 2048) : Read.idx_main_v2 (ix3 b r k) = ix3 b r (0 : Fin 1) :=
  funext fun a => Fin.ext (by match a with | ⟨0, _⟩ => rfl | ⟨1, _⟩ => rfl | ⟨2, _⟩ => rfl)

/-- The row broadcast of the reshaped words reads the key position's word. -/
theorem idx_v1_v3_at (b : Fin 8) (r k : Fin 2048) :
    Read.idx_main_v1 (Read.idx_main_v3 (ix3 b r k)) = ix3 b k (0 : Fin 1) :=
  funext fun a => Fin.ext (by
    have hb := b.isLt; have hk := k.isLt
    match a with
    | ⟨0, _⟩ => show ((b.val * 1 + 0) * 2048 + k.val) / 2048 = b.val; omega
    | ⟨1, _⟩ => show ((b.val * 1 + 0) * 2048 + k.val) / 1 % 2048 = k.val; omega
    | ⟨2, _⟩ => rfl)

/-- The pair mask at (b, r, k). -/
theorem v4_at (x3 : MArr) (b : Fin 8) (r k : Fin 2048) :
    Read.val_main_v4 (F := Ideal) x3 (ix3 b r k) = pairMask x3 b r k := by
  rw [Read.val_main_v4_apply, Read.val_main_v2_apply, Read.val_main_v3_apply, Read.val_main_v1_apply,
    idx_v2_at, idx_v1_v3_at, v0_at, v0_at]
  rfl

/-! ## The masked score -/

theorem lidx_v5_at (b : Fin 8) (r k : Fin 2048) (d : Fin 1024) : Read.lidx_main_v5 (ix3 b r k) d = ix3 b r d :=
  funext fun a => Fin.ext (by match a with | ⟨0, _⟩ => rfl | ⟨1, _⟩ => rfl | ⟨2, _⟩ => rfl)

theorem ridx_v5_at (b : Fin 8) (r k : Fin 2048) (d : Fin 1024) : Read.ridx_main_v5 (ix3 b r k) d = ix3 b k d :=
  funext fun a => Fin.ext (by match a with | ⟨0, _⟩ => rfl | ⟨1, _⟩ => rfl | ⟨2, _⟩ => rfl)

/-- The contraction of query r with key k. -/
theorem v5_at (x0 x1 : FArr) (b : Fin 8) (r k : Fin 2048) :
    Read.val_main_v5 (F := Ideal) x0 x1 (ix3 b r k) = rawScore x0 x1 b r k := by
  rw [Read.val_main_v5_apply]
  exact Finset.sum_congr rfl fun d _ => by rw [lidx_v5_at, ridx_v5_at]

/-- The masked score at (b, r, k). -/
theorem v6_at (x0 x1 : FArr) (x3 : MArr) (b : Fin 8) (r k : Fin 2048) :
    Read.val_main_v6 (F := Ideal) x0 x1 x3 (ix3 b r k) = score x0 x1 x3 b r k := by
  rw [Read.val_main_v6_apply, v5_at, v4_at]
  rfl

/-! ## The row maximum -/

/-- Dropping the key axis of [8, 2048, 2048] leaves [8, 2048]. -/
theorem reduces_d2 : S8x2048x2048.Reduces [2] S8x2048 := by decide

/-- The reduced index (b, r) with key k put back is (b, r, k). -/
theorem lift_at (b : Fin 8) (r : Fin 2048) (k : Fin (S8x2048x2048.size 2)) :
    reduces_d2.lift (ix2 b r) k = ix3 b r (⟨k.val, k.isLt⟩ : Fin 2048) := by
  funext c; apply Fin.ext
  fin_cases c <;> rfl

/-- The word 0xFF800000 is −∞. -/
theorem negInf_eq : Ideal.ofBits .f32 0xFF800000#32 = (⊥ : EReal) := by simp [Ideal.ofBits, Ideal.ieee]

/-- The row maximum at (b, r). -/
theorem v7_at (x0 x1 : FArr) (x3 : MArr) (b : Fin 8) (r : Fin 2048) :
    Read.val_main_v7 (F := Ideal) x0 x1 x3 (ix2 b r) = rowMax x0 x1 x3 b r := by
  unfold Read.val_main_v7
  rw [Host.reduce_eq_fold_single FloatOps.maximumf _ _ reducesTo_S8x2048x2048_S8x2048_d2 reduces_d2 h_S_]
  have hf : (Read.val_main_v6 (F := Ideal) x0 x1 x3 ∘ reduces_d2.lift (ix2 b r))
      = fun k : Fin 2048 => score x0 x1 x3 b r k :=
    funext fun k => (congrArg (Read.val_main_v6 (F := Ideal) x0 x1 x3) (lift_at b r k)).trans (v6_at x0 x1 x3 b r _)
  have hi : Read.val_main_cst (F := Ideal) (Shape.Idx.first h_S_) = (⊥ : EReal) := negInf_eq
  rw [hf, hi]
  rfl

/-! ## The weights and their sum -/

theorem idx_v8_v9_at (b : Fin 8) (r k : Fin 2048) : Read.idx_main_v8 (Read.idx_main_v9 (ix3 b r k)) = ix2 b r :=
  funext fun a => Fin.ext (by match a with | ⟨0, _⟩ => rfl | ⟨1, _⟩ => rfl)

/-- The masked exponential weight at (b, r, k). -/
theorem v12_at (x0 x1 : FArr) (x3 : MArr) (b : Fin 8) (r k : Fin 2048) :
    Read.val_main_v12 (F := Ideal) x0 x1 x3 (ix3 b r k) = weight x0 x1 x3 b r k := by
  rw [Read.val_main_v12_apply, Read.val_main_v11_apply, Read.val_main_v10_apply, Read.val_main_v9_apply,
    Read.val_main_v8_apply, idx_v8_v9_at, v6_at, v7_at, v4_at]
  rfl

theorem idx_v13_at (b : Fin 8) (r k : Fin 2048) : Read.idx_main_v13 (ix2 b r) k = ix3 b r k :=
  funext fun a => Fin.ext (by match a with | ⟨0, _⟩ => rfl | ⟨1, _⟩ => rfl | ⟨2, _⟩ => rfl)

/-- The row sum at (b, r). -/
theorem v13_at (x0 x1 : FArr) (x3 : MArr) (b : Fin 8) (r : Fin 2048) :
    Read.val_main_v13 (F := Ideal) x0 x1 x3 (ix2 b r) = rowSum x0 x1 x3 b r := by
  rw [Read.val_main_v13_apply, Read.val_main_cst_0_apply]
  show Ideal.ofBits .f32 0x00000000#32 + _ = _
  rw [Ideal.ofBits_zero_f32, zero_add]
  exact Finset.sum_congr rfl fun k _ => by rw [idx_v13_at, v12_at]

theorem idx_v14_at (b : Fin 8) (r : Fin 2048) (z : Fin 1) : Read.idx_main_v14 (ix3 b r z) = ix2 b r :=
  funext fun a => Fin.ext (by match a with | ⟨0, _⟩ => rfl | ⟨1, _⟩ => rfl)

/-- The row sum as a column. -/
theorem v14_at (x0 x1 : FArr) (x3 : MArr) (b : Fin 8) (r : Fin 2048) (z : Fin 1) :
    Read.val_main_v14 (F := Ideal) x0 x1 x3 (ix3 b r z) = rowSum x0 x1 x3 b r := by
  rw [Read.val_main_v14_apply, idx_v14_at, v13_at]

/-! ## The denominator -/

/-- Comparing with the zero word and converting the bit gives the indicator of zero. -/
theorem ind_eq (L : EReal) :
    FloatOps.uitofp (F := Ideal) .f32 (FloatOps.cmpf .oeq L (FloatOps.ofBits (F := Ideal) .f32 0x00000000#32)) = zeroInd L := by
  show (((Ideal.cmp .oeq L (Ideal.ofBits .f32 0x00000000#32)).toNat : ℝ) : EReal) = zeroInd L
  rw [Ideal.ofBits_zero_f32]
  unfold Ideal.cmp zeroInd
  by_cases h : L = 0
  · simp [h]
  · simp [h]

/-- The indicator of a zero row sum. -/
theorem v17_at (x0 x1 : FArr) (x3 : MArr) (b : Fin 8) (r : Fin 2048) (z : Fin 1) :
    Read.val_main_v17 (F := Ideal) x0 x1 x3 (ix3 b r z) = zeroInd (rowSum x0 x1 x3 b r) := by
  rw [Read.val_main_v17_apply, Read.val_main_v16_apply, v14_at, Read.val_main_v15_apply, Read.val_main_cst_1_apply]
  exact ind_eq _

/-- The denominator at (b, r). -/
theorem v20_at (x0 x1 : FArr) (x3 : MArr) (b : Fin 8) (r : Fin 2048) (z : Fin 1) :
    Read.val_main_v20 (F := Ideal) x0 x1 x3 (ix3 b r z) = denomOf (rowSum x0 x1 x3 b r) := by
  rw [Read.val_main_v20_apply, Read.val_main_v18_apply, v14_at, v17_at, Read.val_main_v19_apply,
    Read.val_main_cst_2_apply]
  rfl

/-! ## The quotient and the result -/

theorem idx_v21_at (b : Fin 8) (r k : Fin 2048) : Read.idx_main_v21 (ix3 b r k) = ix3 b r (0 : Fin 1) :=
  funext fun a => Fin.ext (by match a with | ⟨0, _⟩ => rfl | ⟨1, _⟩ => rfl | ⟨2, _⟩ => rfl)

/-- The weight divided by the row's denominator. -/
theorem v22_at (x0 x1 : FArr) (x3 : MArr) (b : Fin 8) (r k : Fin 2048) :
    Read.val_main_v22 (F := Ideal) x0 x1 x3 (ix3 b r k)
      = Ideal.div (weight x0 x1 x3 b r k) (denomOf (rowSum x0 x1 x3 b r)) := by
  rw [Read.val_main_v22_apply, v12_at, Read.val_main_v21_apply, idx_v21_at, v20_at]
  rfl

theorem lidx_v23_at (b : Fin 8) (r k : Fin 2048) (d : Fin 1024) : Read.lidx_main_v23 (ix3 b r d) k = ix3 b r k :=
  funext fun a => Fin.ext (by match a with | ⟨0, _⟩ => rfl | ⟨1, _⟩ => rfl | ⟨2, _⟩ => rfl)

theorem ridx_v23_at (b : Fin 8) (r k : Fin 2048) (d : Fin 1024) : Read.ridx_main_v23 (ix3 b r d) k = ix3 b k d :=
  funext fun a => Fin.ext (by match a with | ⟨0, _⟩ => rfl | ⟨1, _⟩ => rfl | ⟨2, _⟩ => rfl)

/-- The reference's value is the specification's result. -/
theorem val_eq_result (x0 x1 x2 : (⟨Cert.ReferenceIdeal.S8x2048x1024, .f32⟩ : BufTy).Contents (Elt Ideal))
    (x3 : (⟨Cert.ReferenceIdeal.S8x2048x1, .i32⟩ : BufTy).Contents (Elt Ideal)) :
    Cert.ReferenceIdeal.Read.val_main_v23 (F := Ideal) x0 x1 x2 x3 = Cert.MaskedAttn.result x0 x1 x2 x3 := by
  funext i
  obtain ⟨b, r, d, rfl⟩ : ∃ (b : Fin 8) (r : Fin 2048) (d : Fin 1024), i = ix3 b r d := ⟨i 0, i 1, i 2, eq_ix3 i⟩
  rw [result_ix3, Read.val_main_v23_apply]
  unfold outEntry
  exact Finset.sum_congr rfl fun k _ => by rw [lidx_v23_at, ridx_v23_at, v22_at]

end Cert.ReferenceIdeal.RefValue

end
-- ==== Proof.DomainOfPre.lean ====
/-
  The precondition, read back.

  The precondition of the masked attention is a predicate over the queries, the keys, the values and the mask
  words: for each of the three float arrays, "every entry's absolute value is strictly below +∞" (an `and`-reduction over
  all axes of the entrywise comparison of |x| with the binary32 word 0x7F800000 of +∞), and for the mask, "every word is
  0 or 1" (an `and`-reduction over all axes of the entrywise `or` of the two equality tests); the four results are joined
  by `and`. Over the extended reals the absolute value of x is max x (−x) and the word of +∞ is ⊤, so |x| < ⊤ says that
  x is neither ⊤ nor ⊥: x is a real number. An `and` of bits that is 1 has both bits 1, and an `and`-reduction over all
  axes that is 1 met a 1 at every index. Hence: the predicate being 1 gives `Domain`.
-/
import proofs.«164388_j89481348645697_2_alg».proof.Proof.Spec
import proofs.«164388_j89481348645697_2_alg».proof.Pre_finite_inputs
import proofs.«164388_j89481348645697_2_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.MaskedAttn

open Idealize.ShloMosaic Idealize.ShloMosaic.ValueIdx

/-- A rank-0 array has one index. -/
instance subsingleton_scalarIdx : Subsingleton (Cert.Pre_finite_inputs.S_).Idx :=
  ⟨fun a b => funext fun d => d.elim0⟩

/-- The binary32 word 0x7F800000 is +∞, the top extended real. -/
theorem ofBits_posInf : Ideal.ofBits .f32 0x7F800000#32 = ⊤ := by simp [Ideal.ofBits, Ideal.ieee]

/-- An extended real whose absolute value max x (−x) compares strictly below +∞ is a real number: the absolute value
    of either infinity is +∞. -/
theorem real_of_abs_lt_top (x : EReal) (h : Ideal.cmp .olt (max x (-x)) ⊤ = 1#1) : x ≠ ⊤ ∧ x ≠ ⊥ := by
  have hlt : max x (-x) < ⊤ := by
    by_contra hn
    simp [Ideal.cmp, hn] at h
  constructor
  · rintro rfl; simp at hlt
  · rintro rfl; simp at hlt

/-- All of |x| below +∞: when the reduction by `and` over all axes of the comparison of |x| with an array that reads +∞
    everywhere is 1, every entry of x is a real number. -/
theorem real_of_all {s t u : Shape} {axes : List (Fin s.rank)} [Subsingleton t.Idx] (x top : FVec Ideal s .f32)
    (htop : ∀ i, top i = ⊤) (init : u.Idx → BitVec 1) (hr : s.ReducesTo axes t) (hu : 0 < u.numel) (j : t.Idx)
    (h : Host.reduce IntOp.andi (cmpf .olt (Host.absf x) top) init hr hu j = 1#1) (i : s.Idx) : x i ≠ ⊤ ∧ x i ≠ ⊥ := by
  have e := Host.reduce_andi_all _ init hr hu j h i
  have e' : Ideal.cmp .olt (max (x i) (-(x i))) (top i) = 1#1 := e
  rw [htop i] at e'
  exact real_of_abs_lt_top _ e'

/-- All words 0 or 1: when the reduction by `and` over all axes of the `or` of the two equality tests,
    against arrays that read the words 0 and 1 everywhere, is 1, every word of r is 0 or 1. -/
theorem binary_of_all {s t u : Shape} {axes : List (Fin s.rank)} [Subsingleton t.Idx] (r zero one : IVec s 32)
    (hzero : ∀ i, zero i = 0#32) (hone : ∀ i, one i = 1#32) (init : u.Idx → BitVec 1) (hr : s.ReducesTo axes t)
    (hu : 0 < u.numel) (j : t.Idx)
    (h : Host.reduce IntOp.andi (ori (cmpi .eq r zero) (cmpi .eq r one)) init hr hu j = 1#1) (i : s.Idx) :
    r i = 0#32 ∨ r i = 1#32 := by
  have e := Host.reduce_andi_all _ init hr hu j h i
  have e' : IntOp.ori (IntOp.cmpi .eq (r i) (zero i)) (IntOp.cmpi .eq (r i) (one i)) = 1#1 := e
  rw [hzero i, hone i, IntOp.ori_eq_one, IntOp.cmpi_eq, IntOp.cmpi_eq] at e'
  exact e'

/-- THE PRECONDITION DECODED: the predicate being 1 says that the queries, the keys and the values are real
    numbers everywhere and that every mask word is 0 or 1. -/
theorem domain_of_pre [Cert.Pre_finite_inputs.Facts]
    (x0 x1 x2 : FVec Ideal Cert.Pre_finite_inputs.S8x2048x1024 .f32) (x3 : IVec Cert.Pre_finite_inputs.S8x2048x1 32)
    (h : Cert.Pre_finite_inputs.fn (F := Ideal) x0 x1 x2 x3 = fun _ => 1#1) : Domain x0 x1 x2 x3 := by
  have h0 := congrFun h ix0
  dsimp only [Cert.Pre_finite_inputs.fn, Cert.Pre_finite_inputs.fn_part1, andi] at h0
  rw [IntOp.andi_eq_one, IntOp.andi_eq_one, IntOp.andi_eq_one] at h0
  obtain ⟨⟨⟨hq, hk⟩, hv⟩, hm⟩ := h0
  exact
    { finQ := real_of_all x0 _ (fun _ => ofBits_posInf) _ _ _ _ hq
      finK := real_of_all x1 _ (fun _ => ofBits_posInf) _ _ _ _ hk
      finV := real_of_all x2 _ (fun _ => ofBits_posInf) _ _ _ _ hv
      bin := binary_of_all x3 _ _ (fun _ => rfl) (fun _ => rfl) _ _ _ _ hm }

end Cert.MaskedAttn

end
-- ==== Proof.GridPoint.lean ====
/-
  The grid of the attention kernel and the keys a point has seen.

  The 64 grid points are numbered row-major over [8, 2, 4]: point t works on batch t / 8, on the query tile (t / 4) mod 2
  (rows 1024·((t / 4) mod 2) … + 1023) and on the key tile t mod 4 (keys 512·(t mod 4) … + 511). After the point of key
  tile j a row has seen the keys below 512·(j + 1): those below 512·j together with tile j.
-/
import proofs.«164388_j89481348645697_2_alg».proof.Proof.Gen.KernelIdeal.Launch

noncomputable section

namespace Cert.KernelIdeal.Grid

open Cert.KernelIdeal Cert.KernelIdeal.Gen Idealize.ShloMosaic

theorem lt64 (t : Fin cfg0.N) : t.val < 64 := lt_of_lt_of_eq t.isLt N_0

/-- The batch a grid point works on. -/
def bOf (t : Fin cfg0.N) : Fin 8 := ⟨t.val / 8, by have := lt64 t; omega⟩

/-- The query position of row `p` of the point's query tile. -/
def rowOf (t : Fin cfg0.N) (p : Fin 1024) : Fin 2048 := ⟨1024 * (t.val / 4 % 2) + p.val, by have := p.isLt; omega⟩

/-- The key position of column `c` of key tile `j`. -/
def keyAt (j : ℕ) (hj : j < 4) (c : Fin 512) : Fin 2048 := ⟨512 * j + c.val, by have := c.isLt; omega⟩

/-- The key position of column `c` of the point's key tile. -/
def keyOf (t : Fin cfg0.N) (c : Fin 512) : Fin 2048 := keyAt (t.val % 4) (Nat.mod_lt _ (by decide)) c

/-- The keys below position `n`. -/
def below (n : ℕ) : Finset (Fin 2048) := Finset.univ.filter fun k => k.val < n

/-- The keys of tile `j`. -/
def tile (j : ℕ) : Finset (Fin 2048) := Finset.univ.filter fun k => 512 * j ≤ k.val ∧ k.val < 512 * (j + 1)

end Cert.KernelIdeal.Grid

end
-- ==== Proof.TileSets.lean ====
/-
  The keys below a position and the keys of a tile, as finite sets.

  The 2048 key positions are cut into four tiles of 512: tile j holds the positions 512·j … 512·j + 511, the image of the
  512 columns under c ↦ 512·j + c, an injective map. The positions below 512·(j + 1) are those below 512·j together with
  tile j, and the two are disjoint; no position is below 0 and every position is below 2048. A sum, or a fold of max,
  over a tile is therefore the same sum, or fold, over the tile's 512 columns.
-/
import proofs.«164388_j89481348645697_2_alg».proof.Proof.GridPoint
import Mathlib.Data.EReal.Basic

noncomputable section

namespace Cert.KernelIdeal.Grid

open scoped BigOperators

/-- No key position is below 0. -/
theorem below_zero : below 0 = ∅ := by
  ext k
  simp [below]

/-- The positions below the end of tile j: those below its start, and the tile. -/
theorem below_succ_tile (j : ℕ) : below (512 * (j + 1)) = below (512 * j) ∪ tile j := by
  ext k
  simp only [below, tile, Finset.mem_union, Finset.mem_filter, Finset.mem_univ, true_and]
  omega

/-- A tile holds no position below its start. -/
theorem disjoint_below_tile (j : ℕ) : Disjoint (below (512 * j)) (tile j) := by
  rw [Finset.disjoint_left]
  intro k hk hk'
  simp only [below, tile, Finset.mem_filter, Finset.mem_univ, true_and] at hk hk'
  omega

/-- Every key position is below 2048. -/
theorem below_all : below 2048 = Finset.univ := by
  ext k
  simp only [below, Finset.mem_filter, Finset.mem_univ, true_and, iff_true]
  exact k.isLt

/-- Distinct columns of a tile are distinct key positions. -/
theorem keyAt_injective (j : ℕ) (hj : j < 4) : Function.Injective (keyAt j hj) := by
  intro c c' h
  have e : 512 * j + c.val = 512 * j + c'.val := congrArg Fin.val h
  exact Fin.ext (by omega)

/-- Tile j is the image of the 512 columns under c ↦ 512·j + c. -/
theorem tile_eq_map (j : ℕ) (hj : j < 4) :
    tile j = (Finset.univ : Finset (Fin 512)).map ⟨keyAt j hj, keyAt_injective j hj⟩ := by
  ext k
  simp only [tile, Finset.mem_filter, Finset.mem_univ, true_and, Finset.mem_map, Function.Embedding.coeFn_mk]
  constructor
  · rintro ⟨h1, h2⟩
    refine ⟨⟨k.val - 512 * j, by omega⟩, Fin.ext ?_⟩
    show 512 * j + (k.val - 512 * j) = k.val
    omega
  · rintro ⟨c, rfl⟩
    have := c.isLt
    show 512 * j ≤ 512 * j + c.val ∧ 512 * j + c.val < 512 * (j + 1)
    omega

/-- A tile is not empty: it holds its first column. -/
theorem tile_nonempty (j : ℕ) (hj : j < 4) : (tile j).Nonempty := by
  rw [tile_eq_map j hj]
  exact ⟨_, Finset.mem_map_of_mem _ (Finset.mem_univ (⟨0, by decide⟩ : Fin 512))⟩

/-- A sum over a tile is the sum over its columns. -/
theorem sum_tile {M : Type*} [AddCommMonoid M] (j : ℕ) (hj : j < 4) (f : Fin 2048 → M) :
    ∑ k ∈ tile j, f k = ∑ c : Fin 512, f (keyAt j hj c) := by
  rw [tile_eq_map j hj, Finset.sum_map]
  rfl

/-- A fold of max over a tile is the fold over its columns. -/
theorem fold_max_tile (j : ℕ) (hj : j < 4) (f : Fin 2048 → EReal) :
    (tile j).fold max ⊥ f = (Finset.univ : Finset (Fin 512)).fold max ⊥ (fun c => f (keyAt j hj c)) := by
  rw [tile_eq_map j hj, Finset.fold_map]
  rfl

end Cert.KernelIdeal.Grid

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.Payloads.lean ====
/-
  The kernel body's arithmetic, read entry by entry over the extended reals.

  One grid point holds a query tile of 1024 rows and a key tile of 512 keys. For row p and key c of the tiles the body forms
  the pair mask (the product of the two positions' mask words), the masked score (the contraction of the query row with the
  key over the 1024 features, times the pair mask), the row's new running maximum (the larger of the old one and the tile's
  row maximum), the rescaling factor exp(old maximum − new maximum), and the masked weight exp(score − new maximum) · mask.
  The running sum becomes factor · old sum + the tile's row sum of weights; the accumulator at feature d becomes
  factor · old accumulator + Σ_c weight(p, c) · value(c, d). At the last key tile the output block is the accumulator over
  sum + [sum = 0] + ε. Each statement below reads one of these terms at literal coordinates.
-/
import proofs.«164388_j89481348645697_2_alg».proof.Proof.Gen.KernelIdeal.Skeleton
import proofs.«164388_j89481348645697_2_alg».proof.Proof.LibColumnLayout
import proofs.«164388_j89481348645697_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.ColumnLayout

/-! ## The mask block, the score block and the running maximum -/

/-- The pair mask of row `p` of the query tile and column `c` of the key tile: the product of the two mask words read as
    signed integers. -/
theorem pay9_apply (x3 : Vec Ideal S1x1024x1 .i32) (x4 : Vec Ideal S1x1x512 .i32) (p : Fin 1024) (c : Fin 512) :
    k0_pay9 (F := Ideal) x3 x4 (ix2 p c)
      = (((x3 (ix3 (0 : Fin 1) p (0 : Fin 1))).toInt : ℝ) : EReal) * (((x4 (ix3 (0 : Fin 1) (0 : Fin 1) c)).toInt : ℝ) : EReal) := by
  unfold k0_pay9
  rw [mulf_apply, broadcastTo_a1_ab_apply, broadcastTo_1b_ab_apply, sitofp_apply, sitofp_apply,
    shapeCast_1ab_ab_apply, shapeCast_1ab_ab_apply]
  rfl

/-- The masked score of row `p` against key `c` of the tile: the contraction over the feature axis times the pair mask. -/
theorem pay10_apply (x0 : Vec Ideal S1x1024x1024 .f32) (x1 : Vec Ideal S1x512x1024 .f32)
    (x3 : Vec Ideal S1x1024x1 .i32) (x4 : Vec Ideal S1x1x512 .i32) (p : Fin 1024) (c : Fin 512) :
    k0_pay10 (F := Ideal) x0 x1 x3 x4 (ix2 p c)
      = (∑ d : Fin 1024, x0 (ix3 (0 : Fin 1) p d) * x1 (ix3 (0 : Fin 1) c d)) * k0_pay9 (F := Ideal) x3 x4 (ix2 p c) := by
  unfold k0_pay10
  rw [mulf_apply]
  refine congrArg (· * k0_pay9 (F := Ideal) x3 x4 (ix2 p c)) ?_
  refine (PlainMatmul.matmul_zero_apply (m := 1024) (k := 1024) (n := 512) (some .fp32) _ _ p c).trans ?_
  refine Finset.sum_congr rfl fun d _ => ?_
  rw [shapeCast_1ab_ab_apply, transpose_ix2_apply, shapeCast_1ab_ab_apply]

/-- The new running maximum of row `p`: the larger of the old one and the tile's row maximum, folded from −∞. -/
theorem pay11_apply (x0 : Vec Ideal S1x1024x1024 .f32) (x1 : Vec Ideal S1x512x1024 .f32)
    (x3 : Vec Ideal S1x1024x1 .i32) (x4 : Vec Ideal S1x1x512 .i32) (mo : Vec Ideal S1024x1 .f32) (p : Fin 1024) :
    k0_pay11 (F := Ideal) x0 x1 x3 x4 mo (ix2 p (0 : Fin 1))
      = max (mo (ix2 p (0 : Fin 1)))
          ((Finset.univ : Finset (Fin 512)).fold max ⊥ (fun c => k0_pay10 (F := Ideal) x0 x1 x3 x4 (ix2 p c))) := by
  unfold k0_pay11
  rw [maximumf_apply, shapeCast_a_a1_apply]
  refine congrArg (max (mo (ix2 p (0 : Fin 1)))) ?_
  exact rowMax_apply (a := 1024) (b := 512) _ _ _ _ p

/-- The rescaling factor of row `p`: the exponential of the old maximum minus the new one. -/
theorem pay12_apply (x0 : Vec Ideal S1x1024x1024 .f32) (x1 : Vec Ideal S1x512x1024 .f32)
    (x3 : Vec Ideal S1x1024x1 .i32) (x4 : Vec Ideal S1x1x512 .i32) (mo mo' : Vec Ideal S1024x1 .f32) (p : Fin 1024) :
    k0_pay12 (F := Ideal) x0 x1 x3 x4 mo mo' (ix2 p (0 : Fin 1))
      = Ideal.exp (mo' (ix2 p (0 : Fin 1)) - k0_pay11 (F := Ideal) x0 x1 x3 x4 mo (ix2 p (0 : Fin 1))) := rfl

/-- The masked weight of key `c` of the tile in row `p`, relative to the new maximum. -/
theorem pay13_apply (x0 : Vec Ideal S1x1024x1024 .f32) (x1 : Vec Ideal S1x512x1024 .f32)
    (x3 : Vec Ideal S1x1024x1 .i32) (x4 : Vec Ideal S1x1x512 .i32) (mo : Vec Ideal S1024x1 .f32) (p : Fin 1024) (c : Fin 512) :
    k0_pay13 (F := Ideal) x0 x1 x3 x4 mo (ix2 p c)
      = Ideal.exp (k0_pay10 (F := Ideal) x0 x1 x3 x4 (ix2 p c) - k0_pay11 (F := Ideal) x0 x1 x3 x4 mo (ix2 p (0 : Fin 1)))
          * k0_pay9 (F := Ideal) x3 x4 (ix2 p c) := by
  unfold k0_pay13
  rw [mulf_apply]
  refine congrArg (· * k0_pay9 (F := Ideal) x3 x4 (ix2 p c)) ?_
  show Ideal.exp (k0_pay10 (F := Ideal) x0 x1 x3 x4 (ix2 p c) - broadcastTo S1024x512 (k0_pay11 (F := Ideal) x0 x1 x3 x4 mo) broadcasts_S1024x1_S1024x512 (ix2 p c)) = _
  rw [broadcastTo_a1_ab_apply]

/-! ## The three updates and the final quotient -/

/-- The new running sum of row `p`: the old one rescaled plus the tile's row sum of weights. -/
theorem pay1_apply (al : FVec Ideal S1024x1 .f32) (pv : FVec Ideal S1024x512 .f32) (lo : Vec Ideal S1024x1 .f32) (p : Fin 1024) :
    k0_pay1 (F := Ideal) al pv lo (ix2 p (0 : Fin 1))
      = al (ix2 p (0 : Fin 1)) * lo (ix2 p (0 : Fin 1)) + ∑ c : Fin 512, pv (ix2 p c) := by
  unfold k0_pay1
  rw [shapeCast_self, addf_apply, mulf_apply, shapeCast_a_a1_apply]
  refine congrArg (al (ix2 p (0 : Fin 1)) * lo (ix2 p (0 : Fin 1)) + ·) ?_
  exact rowSum_apply (a := 1024) (b := 512) _ _ _ _ p

/-- The value tile, read at key `c` and feature `d`. -/
theorem pay8_apply (x2 : Vec Ideal S1x512x1024 .f32) (c : Fin 512) (d : Fin 1024) :
    k0_pay8 (F := Ideal) x2 (ix2 c d) = x2 (ix3 (0 : Fin 1) c d) := by
  unfold k0_pay8
  rw [truncf_apply, shapeCast_1ab_ab_apply]

/-- The new accumulator at row `p`, feature `d`: the old one rescaled plus the tile's weights contracted with the values. -/
theorem pay2_apply (vb : FVec Ideal S512x1024 .bf16) (al : FVec Ideal S1024x1 .f32) (pv : FVec Ideal S1024x512 .f32)
    (ao : Vec Ideal S1024x1024 .f32) (p : Fin 1024) (d : Fin 1024) :
    k0_pay2 (F := Ideal) vb al pv ao (ix2 p d)
      = al (ix2 p (0 : Fin 1)) * ao (ix2 p d) + ∑ c : Fin 512, pv (ix2 p c) * vb (ix2 c d) := by
  unfold k0_pay2
  rw [shapeCast_self, addf_apply, mulf_apply, broadcastTo_a1_ab_apply]
  refine congrArg (al (ix2 p (0 : Fin 1)) * ao (ix2 p d) + ·) ?_
  refine (PlainMatmul.matmul_zero_apply (m := 1024) (k := 512) (n := 1024) none _ _ p d).trans ?_
  refine Finset.sum_congr rfl fun c _ => ?_
  rw [truncf_apply]

/-- The stored maximum is the new maximum. -/
theorem pay3_eq (v : FVec Ideal S1024x1 .f32) : k0_pay3 (F := Ideal) v = v := by
  unfold k0_pay3
  rw [shapeCast_self]

/-- The reset values: −∞ for the maximum, zero for the sum and the accumulator. -/
theorem pay5_apply (j : S1024x1.Idx) : k0_pay5 (F := Ideal) j = ⊥ := by
  unfold k0_pay5
  rw [shapeCast_self, broadcast_apply]
  exact ofBits_neg_inf_f32

theorem pay6_apply (j : S1024x1.Idx) : k0_pay6 (F := Ideal) j = 0 := by
  unfold k0_pay6
  rw [shapeCast_self, broadcast_apply]
  exact Ideal.ofBits_zero_f32

theorem pay7_apply (j : S1024x1024.Idx) : k0_pay7 (F := Ideal) j = 0 := by
  unfold k0_pay7
  rw [shapeCast_self, broadcast_apply]
  exact Ideal.ofBits_zero_f32

/-- One where the argument is zero, zero elsewhere, as the comparison, the widening and the conversion compute it. -/
theorem indicator_eq (x : EReal) :
    (FloatOps.sitofp (F := Ideal) FTy.f32
        (BitVec.setWidth 32 (FloatOps.cmpf (F := Ideal) CmpFPredicate.oeq x (FloatOps.ofBits FTy.f32 0#32))) : EReal)
      = if x = 0 then 1 else 0 := by
  show (((BitVec.setWidth 32 (Ideal.cmp .oeq x (Ideal.ofBits .f32 0#32))).toInt : ℝ) : EReal) = _
  rw [Ideal.ofBits_zero_f32]
  unfold Ideal.cmp
  by_cases hx : x = 0
  · rw [if_pos hx]
    have h1 : (BitVec.setWidth 32 (BitVec.ofBool (decide (x = 0)))).toInt = 1 := by rw [decide_eq_true hx]; decide
    rw [h1]; simp
  · rw [if_neg hx]
    have h0 : (BitVec.setWidth 32 (BitVec.ofBool (decide (x = 0)))).toInt = 0 := by rw [decide_eq_false hx]; decide
    rw [h0]; simp

/-- The output block at row `p`, feature `d`: the accumulator over the guarded denominator made from the row sum. -/
theorem pay4_apply (l : Vec Ideal S1024x1 .f32) (acc : Vec Ideal S1024x1024 .f32) (u : Fin 1) (p : Fin 1024) (d : Fin 1024) :
    k0_pay4 (F := Ideal) l acc (ix3 u p d)
      = Ideal.div (acc (ix2 p d))
          (l (ix2 p (0 : Fin 1)) + (if l (ix2 p (0 : Fin 1)) = 0 then (1 : EReal) else 0) + Ideal.ofBits .f32 0x1E3CE508#32) := by
  unfold k0_pay4
  rw [shapeCast_ab_1ab_apply, divf_apply, broadcastTo_a1_ab_apply, addf_apply, addf_apply, broadcast_apply, sitofp_apply,
    extui_apply, cmpf_apply, broadcast_apply, indicator_eq]
  rfl

end Cert.KernelIdeal.Pay

end
-- ==== Proof.Pieces.lean ====
/-
  What each control case of the flash-attention body leaves in the carried scratch (running row max, running row sum,
  running accumulator) and, on the last key tile, in the output block — each identified with the payload term it is.

  The body's stores and loads all go through the whole-buffer rectangle at zero offsets, so a buffer's final contents
  are the payload of its last store, a load of an input reads the input, and a load of a scratch buffer stored earlier
  at the same point reads that store's payload.
-/
import proofs.«164388_j89481348645697_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

/-- The zero offsets of a rank-2 buffer. -/
theorem hz2 : (![0, 0] : Fin 2 → Nat) = fun _ => 0 := funext fun a => by fin_cases a <;> rfl
/-- The zero offsets of a rank-3 buffer. -/
theorem hz3 : (![0, 0, 0] : Fin 3 → Nat) = fun _ => 0 := funext fun a => by fin_cases a <;> rfl

/-! ## Tile 0: the scratch is reset (max := −∞, sum := 0, accumulator := 0), then updated

Each scratch buffer receives two whole-buffer stores; the later one decides its contents, and the update's loads of the
scratch read back what the reset just stored. -/

/-- Tile 0, running max: the reset stores −∞, the update reads it back, and leaves `max(−∞, rowmax s)` of this tile's scores. -/
theorem sout0_A_0_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) :
    sout0_A_0 c i arg3 harg3 arg4 harg4 arg5 harg5 arg6 harg6 arg7 harg7 arg8 harg8 arg9 harg9 arg10 harg10 arg11 harg11 hc0 hc1 x0 x1 x2 x3 x4 =
      k0_pay3 (k0_pay11 x0 x1 x3 x4 k0_pay5) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2, View.readCov_unit_zero (S := S1024x1) arg9.view hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Tile 0, running sum: the reset stores 0 (and −∞ for the max); the update leaves `exp(m_old − m_new) · 0 + rowsum p` with `m_old = −∞`. -/
theorem sout0_A_1_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) :
    sout0_A_1 c i arg3 harg3 arg4 harg4 arg5 harg5 arg6 harg6 arg7 harg7 arg8 harg8 arg9 harg9 arg10 harg10 arg11 harg11 hc0 hc1 x0 x1 x2 x3 x4 =
      k0_pay1 (k0_pay12 x0 x1 x3 x4 k0_pay5 k0_pay5) (k0_pay13 x0 x1 x3 x4 k0_pay5) k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2, View.readCov_unit_zero (S := S1024x1) arg9.view hz2,
    View.readCov_unit_zero (S := S1024x1) arg10.view hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Tile 0, accumulator: the reset stores 0; the update leaves `exp(m_old − m_new) · 0 + p · v` with `m_old = −∞`. -/
theorem sout0_A_2_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) :
    sout0_A_2 c i arg3 harg3 arg4 harg4 arg5 harg5 arg6 harg6 arg7 harg7 arg8 harg8 arg9 harg9 arg10 harg10 arg11 harg11 hc0 hc1 x0 x1 x2 x3 x4 =
      k0_pay2 (k0_pay8 x2) (k0_pay12 x0 x1 x3 x4 k0_pay5 k0_pay5) (k0_pay13 x0 x1 x3 x4 k0_pay5) k0_pay7 := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1024) hz2, View.readCov_unit_zero (S := S1024x1) arg9.view hz2,
    View.readCov_unit_zero (S := S1024x1024) arg11.view hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-! ## Tiles 1 and 2: the online-softmax update of the carried scratch

Each scratch buffer receives one whole-buffer store, whose payload reads the carried contents `xs0` (max), `xs1` (sum),
`xs2` (accumulator); the running max is loaded twice, both times before it is stored, so both reads are the old max. -/

/-- Middle tiles, running max: one covering store of `max(m, rowmax s)` over the carried max `m`. -/
theorem sout0_B_0_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 xs0 xs1 xs2 =
      k0_pay3 (k0_pay11 x0 x1 x3 x4 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero (S := S1024x1) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Middle tiles, running sum: one covering store of `exp(m − m_new) · l + rowsum p` over the carried `m`, `l`. -/
theorem sout0_B_1_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_B_1 c i arg3 harg3 arg4 harg4 arg5 harg5 arg6 harg6 arg7 harg7 arg8 harg8 arg9 harg9 arg10 harg10 arg11 harg11 hc0 hc1 x0 x1 x2 x3 x4 xs0 xs1 xs2 =
      k0_pay1 (k0_pay12 x0 x1 x3 x4 xs0 xs0) (k0_pay13 x0 x1 x3 x4 xs0) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero (S := S1024x1) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Middle tiles, accumulator: one covering store of `exp(m − m_new) · acc + p · v` over the carried `m`, `acc`. -/
theorem sout0_B_2_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : ¬cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_B_2 c i arg3 harg3 arg4 harg4 arg5 harg5 arg6 harg6 arg7 harg7 arg8 harg8 arg9 harg9 arg10 harg10 arg11 harg11 hc0 hc1 x0 x1 x2 x3 x4 xs0 xs1 xs2 =
      k0_pay2 (k0_pay8 x2) (k0_pay12 x0 x1 x3 x4 xs0 xs0) (k0_pay13 x0 x1 x3 x4 xs0) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero (S := S1024x1024) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-! ## Tile 3: the same update, then the output block `acc_new / (l_new + [l_new = 0] + ε)`

The final branch loads the sum and the accumulator AFTER this point's stores, so the division's operands are the new sum
and the new accumulator. -/

/-- Last tile, running max: the same update as on the middle tiles. -/
theorem sout0_C_0_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 xs0 xs1 xs2 =
      k0_pay3 (k0_pay11 x0 x1 x3 x4 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero (S := S1024x1) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Last tile, running sum: the same update as on the middle tiles. -/
theorem sout0_C_1_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_C_1 c i arg3 harg3 arg4 harg4 arg5 harg5 arg6 harg6 arg7 harg7 arg8 harg8 arg9 harg9 arg10 harg10 arg11 harg11 hc0 hc1 x0 x1 x2 x3 x4 xs0 xs1 xs2 =
      k0_pay1 (k0_pay12 x0 x1 x3 x4 xs0 xs0) (k0_pay13 x0 x1 x3 x4 xs0) xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero (S := S1024x1) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Last tile, accumulator: the same update as on the middle tiles. -/
theorem sout0_C_2_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    sout0_C_2 c i arg3 harg3 arg4 harg4 arg5 harg5 arg6 harg6 arg7 harg7 arg8 harg8 arg9 harg9 arg10 harg10 arg11 harg11 hc0 hc1 x0 x1 x2 x3 x4 xs0 xs1 xs2 =
      k0_pay2 (k0_pay8 x2) (k0_pay12 x0 x1 x3 x4 xs0 xs0) (k0_pay13 x0 x1 x3 x4 xs0) xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero (S := S1024x1024) hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

/-- Last tile, output block: one covering store of the normalised accumulator, its operands the updated sum and the updated
    accumulator read back from the scratch. -/
theorem out0_C_5_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x1 .i32) (harg6 : arg6.IsWhole) (arg7 : Memref sig .tc .vmem S1x1x512 .i32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond0_0 i) (hc1 : cond0_1 i)
    (x0 : Vec F S1x1024x1024 .f32) (x1 : Vec F S1x512x1024 .f32) (x2 : Vec F S1x512x1024 .f32) (x3 : Vec F S1x1024x1 .i32) (x4 : Vec F S1x1x512 .i32) (xs0 : Vec F S1024x1 .f32) (xs1 : Vec F S1024x1 .f32) (xs2 : Vec F S1024x1024 .f32) :
    out0_C_5 c i arg3 harg3 arg4 harg4 arg5 harg5 arg6 harg6 arg7 harg7 arg8 harg8 arg9 harg9 arg10 harg10 arg11 harg11 hc0 hc1 x0 x1 x2 x3 x4 xs0 xs1 xs2 =
      k0_pay4 (k0_pay1 (k0_pay12 x0 x1 x3 x4 xs0 xs0) (k0_pay13 x0 x1 x3 x4 xs0) xs1)
        (k0_pay2 (k0_pay8 x2) (k0_pay12 x0 x1 x3 x4 xs0 xs0) (k0_pay13 x0 x1 x3 x4 xs0) xs2) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero (S := S1x1024x1024) hz3, View.readCov_unit_zero (S := S1024x1) arg10.view hz2,
    View.readCov_unit_zero (S := S1024x1024) arg11.view hz2]
  simp only [View.readAt_eq_ld, harg3.read_unread, harg4.read_unread, harg5.read_unread, harg6.read_unread,
    harg7.read_unread, harg9.read_unread, harg10.read_unread, harg11.read_unread,
    View.ld_unit_zero (S := S1024x1) hz2, View.ld_unit_zero (S := S1024x1024) hz2,
    View.ld_unit_zero (S := S1x1024x1024) hz3, View.ld_unit_zero (S := S1x512x1024) hz3,
    View.ld_unit_zero (S := S1x1024x1) hz3, View.ld_unit_zero (S := S1x1x512) hz3]

end Cert.KernelIdeal.Pieces
-- ==== Proof.BlockReads.lean ====
/-
  The input blocks of the attention kernel, read at an index.

  Window w's block at grid point t is its array read through the rectangle whose coordinate on each axis is
  (block index) × (block size) + (coordinate inside the block). The block index is the window's index map at the
  point's grid coordinates; over the 64 points, numbered row-major over [8, 2, 4], it is the batch t / 8 on axis 0, the
  query tile (t / 4) mod 2 or the key tile t mod 4 on the tiled axis, and 0 on an axis the block spans whole. So row p
  of the query block is query position 1024·((t / 4) mod 2) + p, row c of the key block and of the value block is key
  position 512·(t mod 4) + c, and the two mask blocks hold the mask words of the same positions. The key mask's array is
  the array of mask words with its last two axes swapped, which the host computes before the kernel starts.
-/
import proofs.«164388_j89481348645697_2_alg».proof.Proof.GridPoint
import proofs.«164388_j89481348645697_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.Tactic

noncomputable section

namespace Cert.KernelIdeal.Blocks

open Cert.KernelIdeal Cert.KernelIdeal.Gen Cert.KernelIdeal.Grid Idealize.ShloMosaic Idealize.ShloMosaic.ValueIdx Idealize.ShloMosaic.TcCoe

variable (m : (ℓ : Loc nD τ sig) → Buf (Elt Ideal) ℓ)

/-! ## The block indices over the grid -/

/-- Every window's block index at every grid point: the batch on axis 0; the query tile (windows 0, 3, 5) or the key
    tile (windows 1, 2, 4) on the tiled axis; zero on an axis the block spans whole. -/
theorem idx_facts : ∀ t : Fin cfg0.N,
    (win0_0.index t (0 : Fin 3) = t.val / 8 ∧ win0_0.index t (1 : Fin 3) = t.val / 4 % 2 ∧ win0_0.index t (2 : Fin 3) = 0)
    ∧ (win0_1.index t (0 : Fin 3) = t.val / 8 ∧ win0_1.index t (1 : Fin 3) = t.val % 4 ∧ win0_1.index t (2 : Fin 3) = 0)
    ∧ (win0_2.index t (0 : Fin 3) = t.val / 8 ∧ win0_2.index t (1 : Fin 3) = t.val % 4 ∧ win0_2.index t (2 : Fin 3) = 0)
    ∧ (win0_3.index t (0 : Fin 3) = t.val / 8 ∧ win0_3.index t (1 : Fin 3) = t.val / 4 % 2 ∧ win0_3.index t (2 : Fin 3) = 0)
    ∧ (win0_4.index t (0 : Fin 3) = t.val / 8 ∧ win0_4.index t (1 : Fin 3) = 0 ∧ win0_4.index t (2 : Fin 3) = t.val % 4)
    ∧ (win0_5.index t (0 : Fin 3) = t.val / 8 ∧ win0_5.index t (1 : Fin 3) = t.val / 4 % 2 ∧ win0_5.index t (2 : Fin 3) = 0) :=
  (by decide +kernel : ∀ t : Fin grid0.N,
    (win0_0.index t (0 : Fin 3) = t.val / 8 ∧ win0_0.index t (1 : Fin 3) = t.val / 4 % 2 ∧ win0_0.index t (2 : Fin 3) = 0)
    ∧ (win0_1.index t (0 : Fin 3) = t.val / 8 ∧ win0_1.index t (1 : Fin 3) = t.val % 4 ∧ win0_1.index t (2 : Fin 3) = 0)
    ∧ (win0_2.index t (0 : Fin 3) = t.val / 8 ∧ win0_2.index t (1 : Fin 3) = t.val % 4 ∧ win0_2.index t (2 : Fin 3) = 0)
    ∧ (win0_3.index t (0 : Fin 3) = t.val / 8 ∧ win0_3.index t (1 : Fin 3) = t.val / 4 % 2 ∧ win0_3.index t (2 : Fin 3) = 0)
    ∧ (win0_4.index t (0 : Fin 3) = t.val / 8 ∧ win0_4.index t (1 : Fin 3) = 0 ∧ win0_4.index t (2 : Fin 3) = t.val % 4)
    ∧ (win0_5.index t (0 : Fin 3) = t.val / 8 ∧ win0_5.index t (1 : Fin 3) = t.val / 4 % 2 ∧ win0_5.index t (2 : Fin 3) = 0))

/-! ## The host's transpose before the kernel -/

/-- When the kernel starts, the key mask's array is the array of mask words with its last two axes swapped. -/
theorem V_main_v0 (c : Dev nD) :
    (V m c main_v0 : S8x1x2048.Idx → BitVec 32)
      = transpose S8x1x2048 [0, 2, 1] (m ((c : Thread nD τ).loc main_arg3)) transposes_S8x2048x1_S8x1x2048_0_2_1 := by
  dsimp only [Gen.V, Gen.hostOps0]; after_results

/-! ## The blocks -/
/-- Row p of the query block is query position 1024·((t / 4) mod 2) + p of batch t / 8. -/
theorem iblk0_apply (c : Dev nD) (t : Fin cfg0.N) (p : Fin 1024) (d : Fin 1024) :
    (iblk m c 0 t : Vec Ideal S1x1024x1024 .f32) (ix3 (0 : Fin 1) p d)
      = (m ((c : Thread nD τ).loc main_arg0) : S8x2048x1024.Idx → EReal) (ix3 (bOf t) (rowOf t p) d) := by
  have hi := (idx_facts t).1
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 1 + 1 * 0 = t.val / 8; rw [hi.1]; omega
  | ⟨1, _⟩ => show win0_0.index t 1 * 1024 + 1 * p.val = 1024 * (t.val / 4 % 2) + p.val; rw [hi.2.1]; omega
  | ⟨2, _⟩ => show win0_0.index t 2 * 1024 + 1 * d.val = d.val; rw [hi.2.2]; omega

/-- Row c of the key block is key position 512·(t mod 4) + c of batch t / 8. -/
theorem iblk1_apply (c : Dev nD) (t : Fin cfg0.N) (cc : Fin 512) (d : Fin 1024) :
    (iblk m c 1 t : Vec Ideal S1x512x1024 .f32) (ix3 (0 : Fin 1) cc d)
      = (m ((c : Thread nD τ).loc main_arg1) : S8x2048x1024.Idx → EReal) (ix3 (bOf t) (keyOf t cc) d) := by
  have hi := (idx_facts t).2.1
  unfold iblk
  rw [View.read_apply]
  show V m c main_arg1 _ = m (c.tc.loc main_arg1) _
  rw [V_main_arg1]
  refine congrArg _ ?_
  funext a
  apply Fin.ext
  match a with
  | ⟨0, _⟩ => show win0_1.index t 0 * 1 + 1 * 0 = t.val / 8; rw [hi.1]; omega
  | ⟨1, _⟩ => show win0_1.index t 1 * 512 + 1 * cc.val = 512 * (t.val % 4) + cc.val; rw [hi.2.1]; omega
  | ⟨2, _⟩ => show win0_1.index t 2 * 1024 + 1 * d.val = d.val; rw [hi.2.2]; omega

/-- Row c of the value block is key position 512·(t mod 4) + c of batch t / 8. -/
theorem iblk2_apply (c : Dev nD) (t : Fin cfg0.N) (cc : Fin 512) (d : Fin 1024) :
    (iblk m c 2 t : Vec Ideal S1x512x1024 .f32) (ix3 (0 : Fin 1) cc d)
      = (m ((c : Thread nD τ).loc main_arg2) : S8x2048x1024.Idx → EReal) (ix3 (bOf t) (keyOf t cc) d) := by
  have hi := (idx_facts t).2.2.1
  unfold iblk
  rw [View.read_apply]
  show V m c main_arg2 _ = m (c.tc.loc main_arg2) _
  rw [V_main_arg2]
  refine congrArg _ ?_
  funext a
  apply Fin.ext
  match a with
  | ⟨0, _⟩ => show win0_2.index t 0 * 1 + 1 * 0 = t.val / 8; rw [hi.1]; omega
  | ⟨1, _⟩ => show win0_2.index t 1 * 512 + 1 * cc.val = 512 * (t.val % 4) + cc.val; rw [hi.2.1]; omega
  | ⟨2, _⟩ => show win0_2.index t 2 * 1024 + 1 * d.val = d.val; rw [hi.2.2]; omega

/-- Row p of the query mask's block is the mask word of query position 1024·((t / 4) mod 2) + p. -/
theorem iblk3_apply (c : Dev nD) (t : Fin cfg0.N) (p : Fin 1024) :
    (iblk m c 3 t : Vec Ideal S1x1024x1 .i32) (ix3 (0 : Fin 1) p (0 : Fin 1))
      = (m ((c : Thread nD τ).loc main_arg3) : S8x2048x1.Idx → BitVec 32) (ix3 (bOf t) (rowOf t p) (0 : Fin 1)) := by
  have hi := (idx_facts t).2.2.2.1
  unfold iblk
  rw [View.read_apply]
  show V m c main_arg3 _ = m (c.tc.loc main_arg3) _
  rw [V_main_arg3]
  refine congrArg _ ?_
  funext a
  apply Fin.ext
  match a with
  | ⟨0, _⟩ => show win0_3.index t 0 * 1 + 1 * 0 = t.val / 8; rw [hi.1]; omega
  | ⟨1, _⟩ => show win0_3.index t 1 * 1024 + 1 * p.val = 1024 * (t.val / 4 % 2) + p.val; rw [hi.2.1]; omega
  | ⟨2, _⟩ => show win0_3.index t 2 * 1 + 1 * 0 = 0; rw [hi.2.2]

/-- Column c of the key mask's block is the mask word of key position 512·(t mod 4) + c. -/
theorem iblk4_apply (c : Dev nD) (t : Fin cfg0.N) (cc : Fin 512) :
    (iblk m c 4 t : Vec Ideal S1x1x512 .i32) (ix3 (0 : Fin 1) (0 : Fin 1) cc)
      = (m ((c : Thread nD τ).loc main_arg3) : S8x2048x1.Idx → BitVec 32) (ix3 (bOf t) (keyOf t cc) (0 : Fin 1)) := by
  have hi := (idx_facts t).2.2.2.2.1
  have e : (iblk m c 4 t : Vec Ideal S1x1x512 .i32) (ix3 (0 : Fin 1) (0 : Fin 1) cc)
      = (V m c main_v0 : S8x1x2048.Idx → BitVec 32) (ix3 (bOf t) (0 : Fin 1) (keyOf t cc)) := by
    unfold iblk
    rw [View.read_apply]
    show V m c main_v0 _ = V m c main_v0 _
    refine congrArg _ ?_
    funext a
    apply Fin.ext
    match a with
    | ⟨0, _⟩ => show win0_4.index t 0 * 1 + 1 * 0 = t.val / 8; rw [hi.1]; omega
    | ⟨1, _⟩ => show win0_4.index t 1 * 1 + 1 * 0 = 0; rw [hi.2.1]
    | ⟨2, _⟩ => show win0_4.index t 2 * 512 + 1 * cc.val = 512 * (t.val % 4) + cc.val; rw [hi.2.2]; omega
  rw [e, V_main_v0]
  exact transpose_ix3_021_apply _ _ (bOf t) (0 : Fin 1) (keyOf t cc)

end Cert.KernelIdeal.Blocks

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.LibOnlineSoftmax.lean ====
/-
  Online (tile-by-tile) evaluation of a masked softmax-weighted sum over the extended reals.

  Over a finite set A of keys with scores s, masks μ and a value column v one keeps three quantities: the maximum
  score mx s A (folded from −∞), the sum wsum s μ A = Σ_{k ∈ A} exp(s k − mx s A) · μ k of the masked weights
  relative to that maximum, and the weighted sum wacc s μ v A = Σ_{k ∈ A} exp(s k − mx s A) · μ k · v k of the
  value column.  Adding a disjoint nonempty tile B replaces the maximum by max (mx s A) (mx s B) and rescales the
  old sums by exp(mx s A − mx s (A ∪ B)); with finite scores, masks and values this rescaling is exact, because
  exp(M − M') · exp(x − M) = exp(x − M') for reals (and for A = ∅ the old maximum is −∞, its exponential is 0 and
  the old sums are 0).  Finally, dividing the weighted sum by a positive finite denominator equals dividing every
  weight first, since division by a nonzero real is multiplication by its reciprocal and distributes over a finite
  sum of reals.
-/
import Idealize.ShloMosaic.PureOps.Ideal
import proofs.«164388_j89481348645697_2_alg».proof.Proof.LibERealSum

noncomputable section

namespace Cert.OnlineSoftmax

open Idealize.ShloMosaic
open scoped BigOperators
open Cert.Lib.ERealSum

variable {κ : Type*} [DecidableEq κ]

/-- The maximum of the scores over `A`, folded from −∞. -/
def mx (s : κ → EReal) (A : Finset κ) : EReal := A.fold max ⊥ s

/-- The sum over `A` of the masked weights relative to the maximum over `A`. -/
def wsum (s μ : κ → EReal) (A : Finset κ) : EReal := ∑ k ∈ A, Ideal.exp (s k - mx s A) * μ k

/-- The weighted sum of the value column over `A`. -/
def wacc (s μ v : κ → EReal) (A : Finset κ) : EReal := ∑ k ∈ A, Ideal.exp (s k - mx s A) * μ k * v k

/-- Over no keys the maximum is −∞. -/
theorem mx_empty (s : κ → EReal) : mx s ∅ = ⊥ := Finset.fold_empty

/-- Over no keys the sum of weights is zero. -/
theorem wsum_empty (s μ : κ → EReal) : wsum s μ ∅ = 0 := Finset.sum_empty

/-- Over no keys the weighted sum is zero. -/
theorem wacc_empty (s μ v : κ → EReal) : wacc s μ v ∅ = 0 := Finset.sum_empty

/-- The maximum over a disjoint union is the larger of the two maxima. -/
theorem mx_union (s : κ → EReal) (A B : Finset κ) (h : Disjoint A B) :
    mx s (A ∪ B) = max (mx s A) (mx s B) := by
  have key := Finset.fold_union_inter (op := max) (f := s) (b₁ := (⊥ : EReal)) (b₂ := (⊥ : EReal))
    (s₁ := A) (s₂ := B)
  rw [Finset.disjoint_iff_inter_eq_empty.mp h, Finset.fold_empty, max_bot_right] at key
  exact key

/-- Over a nonempty set of finite scores the maximum is a real number (the largest score, which is attained). -/
private theorem mx_coe (s' : κ → ℝ) (A : Finset κ) (hA : A.Nonempty) :
    ∃ M : ℝ, mx (fun k => (s' k : EReal)) A = (M : EReal) := by
  obtain ⟨x, hx, hmax⟩ := Finset.exists_max_image A s' hA
  refine ⟨s' x, le_antisymm ?_ ?_⟩
  · exact (Finset.fold_max_le _).mpr ⟨bot_le, fun k hk => EReal.coe_le_coe_iff.mpr (hmax k hk)⟩
  · exact (Finset.le_fold_max _).mpr (Or.inr ⟨x, hx, le_rfl⟩)

/-- Rescaling a sum of weights taken relative to a real M to one taken relative to a real M'. -/
private theorem rescale_sum (s' μ' : κ → ℝ) (M M' : ℝ) (A : Finset κ) :
    ∑ k ∈ A, Ideal.exp ((s' k : EReal) - (M' : EReal)) * (μ' k : EReal)
      = Ideal.exp ((M : EReal) - (M' : EReal)) * ∑ k ∈ A, Ideal.exp ((s' k : EReal) - (M : EReal)) * (μ' k : EReal) := by
  simp only [← EReal.coe_sub, Ideal.exp_coe]
  rw [sum_coe_mul_coe, sum_coe_mul_coe, ← EReal.coe_mul, Finset.mul_sum]
  congr 1
  refine Finset.sum_congr rfl fun k _ => ?_
  rw [← mul_assoc, ← Real.exp_add]
  congr 2
  ring

/-- The same for the weighted sum of a value column. -/
private theorem rescale_acc (s' μ' v' : κ → ℝ) (M M' : ℝ) (A : Finset κ) :
    ∑ k ∈ A, Ideal.exp ((s' k : EReal) - (M' : EReal)) * (μ' k : EReal) * (v' k : EReal)
      = Ideal.exp ((M : EReal) - (M' : EReal))
          * ∑ k ∈ A, Ideal.exp ((s' k : EReal) - (M : EReal)) * (μ' k : EReal) * (v' k : EReal) := by
  simp only [← EReal.coe_sub, Ideal.exp_coe, ← EReal.coe_mul]
  rw [← coe_finset_sum, ← coe_finset_sum, ← EReal.coe_mul, Finset.mul_sum]
  congr 1
  refine Finset.sum_congr rfl fun k _ => ?_
  rw [← mul_assoc, ← mul_assoc, ← Real.exp_add]
  congr 3
  ring

/-- Finite extended reals are embedded reals. -/
private theorem exists_real (s : κ → EReal) (hs : ∀ k, s k ≠ ⊤ ∧ s k ≠ ⊥) :
    ∃ s' : κ → ℝ, s = fun k => (s' k : EReal) :=
  ⟨fun k => (s k).toReal, funext fun k => (EReal.coe_toReal (hs k).1 (hs k).2).symm⟩

/-- Adding a disjoint nonempty tile: the old sum of weights is rescaled by exp(old max − new max). -/
theorem wsum_union (s μ : κ → EReal) (hs : ∀ k, s k ≠ ⊤ ∧ s k ≠ ⊥) (hμ : ∀ k, μ k ≠ ⊤ ∧ μ k ≠ ⊥)
    (A B : Finset κ) (h : Disjoint A B) (hB : B.Nonempty) :
    wsum s μ (A ∪ B) = Ideal.exp (mx s A - mx s (A ∪ B)) * wsum s μ A
      + ∑ k ∈ B, Ideal.exp (s k - mx s (A ∪ B)) * μ k := by
  obtain ⟨s', rfl⟩ := exists_real s hs
  obtain ⟨μ', rfl⟩ := exists_real μ hμ
  obtain ⟨M', hM'⟩ := mx_coe s' (A ∪ B) (hB.mono Finset.subset_union_right)
  rw [wsum, Finset.sum_union h]
  congr 1
  rcases A.eq_empty_or_nonempty with rfl | hA
  · simp [wsum]
  · obtain ⟨M, hM⟩ := mx_coe s' A hA
    rw [wsum, hM, hM']
    exact rescale_sum s' μ' M M' A

/-- Adding a disjoint nonempty tile: the old weighted sum is rescaled by exp(old max − new max). -/
theorem wacc_union (s μ v : κ → EReal) (hs : ∀ k, s k ≠ ⊤ ∧ s k ≠ ⊥) (hμ : ∀ k, μ k ≠ ⊤ ∧ μ k ≠ ⊥)
    (hv : ∀ k, v k ≠ ⊤ ∧ v k ≠ ⊥) (A B : Finset κ) (h : Disjoint A B) (hB : B.Nonempty) :
    wacc s μ v (A ∪ B) = Ideal.exp (mx s A - mx s (A ∪ B)) * wacc s μ v A
      + ∑ k ∈ B, Ideal.exp (s k - mx s (A ∪ B)) * μ k * v k := by
  obtain ⟨s', rfl⟩ := exists_real s hs
  obtain ⟨μ', rfl⟩ := exists_real μ hμ
  obtain ⟨v', rfl⟩ := exists_real v hv
  obtain ⟨M', hM'⟩ := mx_coe s' (A ∪ B) (hB.mono Finset.subset_union_right)
  rw [wacc, Finset.sum_union h]
  congr 1
  rcases A.eq_empty_or_nonempty with rfl | hA
  · simp [wacc]
  · obtain ⟨M, hM⟩ := mx_coe s' A hA
    rw [wacc, hM, hM']
    exact rescale_acc s' μ' v' M M' A

/-- With finite scores and nonnegative finite masks every weight over `A` is a nonnegative embedded real. -/
private theorem exists_weights (s' μ' : κ → ℝ) (hμ0 : ∀ k, 0 ≤ μ' k) (A : Finset κ) :
    ∃ w : κ → ℝ, (∀ k, 0 ≤ w k) ∧
      ∀ k ∈ A, Ideal.exp ((s' k : EReal) - mx (fun k => (s' k : EReal)) A) * (μ' k : EReal) = (w k : EReal) := by
  rcases A.eq_empty_or_nonempty with rfl | hA
  · exact ⟨fun _ => 0, fun _ => le_rfl, fun k hk => absurd hk (Finset.notMem_empty k)⟩
  · obtain ⟨M, hM⟩ := mx_coe s' A hA
    refine ⟨fun k => Real.exp (s' k - M) * μ' k, fun k => mul_nonneg (Real.exp_pos _).le (hμ0 k), fun k _ => ?_⟩
    rw [hM, ← EReal.coe_sub, Ideal.exp_coe, ← EReal.coe_mul]

/-- Dividing the weighted sum by the guarded denominator equals dividing every weight first (the denominator is a
    positive real when the masks are nonnegative). -/
theorem div_wacc (s μ v : κ → EReal) (hs : ∀ k, s k ≠ ⊤ ∧ s k ≠ ⊥) (hμ : ∀ k, μ k ≠ ⊤ ∧ μ k ≠ ⊥)
    (hv : ∀ k, v k ≠ ⊤ ∧ v k ≠ ⊥) (hμ0 : ∀ k, 0 ≤ μ k) (A : Finset κ) (e : EReal) (he0 : 0 < e) (he : e ≠ ⊤) :
    Ideal.div (wacc s μ v A) (wsum s μ A + (if wsum s μ A = 0 then (1 : EReal) else 0) + e)
      = ∑ k ∈ A, Ideal.div (Ideal.exp (s k - mx s A) * μ k)
          (wsum s μ A + (if wsum s μ A = 0 then (1 : EReal) else 0) + e) * v k := by
  obtain ⟨s', rfl⟩ := exists_real s hs
  obtain ⟨μ', rfl⟩ := exists_real μ hμ
  obtain ⟨v', rfl⟩ := exists_real v hv
  have hμ0' : ∀ k, 0 ≤ μ' k := fun k => EReal.coe_nonneg.mp (hμ0 k)
  obtain ⟨w, hw0, hw⟩ := exists_weights s' μ' hμ0' A
  obtain ⟨e', rfl⟩ : ∃ e' : ℝ, e = (e' : EReal) :=
    ⟨e.toReal, (EReal.coe_toReal he (ne_of_gt (lt_trans EReal.bot_lt_zero he0))).symm⟩
  have he0' : 0 < e' := EReal.coe_pos.mp he0
  have hL : wsum (fun k => (s' k : EReal)) (fun k => (μ' k : EReal)) A = ((∑ k ∈ A, w k : ℝ) : EReal) := by
    rw [wsum, coe_finset_sum]
    exact Finset.sum_congr rfl hw
  have hacc : wacc (fun k => (s' k : EReal)) (fun k => (μ' k : EReal)) (fun k => (v' k : EReal)) A
      = ((∑ k ∈ A, w k * v' k : ℝ) : EReal) := by
    rw [wacc, ← sum_coe_mul_coe]
    exact Finset.sum_congr rfl fun k hk => by rw [hw k hk]
  have hL0 : 0 ≤ ∑ k ∈ A, w k := Finset.sum_nonneg fun k _ => hw0 k
  obtain ⟨D, hD0, hD⟩ : ∃ D : ℝ, 0 < D ∧
      ((∑ k ∈ A, w k : ℝ) : EReal) + (if ((∑ k ∈ A, w k : ℝ) : EReal) = 0 then (1 : EReal) else 0) + (e' : EReal)
        = (D : EReal) := by
    by_cases h0 : ∑ k ∈ A, w k = 0
    · refine ⟨0 + 1 + e', by linarith, ?_⟩
      rw [h0, if_pos EReal.coe_zero]
      simp only [EReal.coe_add, EReal.coe_zero, EReal.coe_one]
    · refine ⟨∑ k ∈ A, w k + 0 + e', by linarith, ?_⟩
      rw [if_neg (by exact_mod_cast h0)]
      simp only [EReal.coe_add, EReal.coe_zero]
  rw [hL, hacc, hD, Ideal.div_coe hD0.ne', ← EReal.coe_mul, Finset.sum_mul, coe_finset_sum]
  refine Finset.sum_congr rfl fun k hk => ?_
  rw [hw k hk, Ideal.div_coe hD0.ne', ← EReal.coe_mul, ← EReal.coe_mul]
  congr 1
  ring

end Cert.OnlineSoftmax

end
-- ==== Proof.RowFacts.lean ====
/-
  One row of masked attention under the precondition's plain facts.

  When every query, key and value entry is a real number and every mask word is 0 or 1, each mask word read as an
  extended real is 0 or 1, so each pair mask (a product of two of them) is 0 or 1: finite and nonnegative.  A
  contraction of real queries with real keys is a real number, hence so is every masked score.  The constant ε of the
  denominator is a positive real.  The row maximum and the row sum of the specification are the online quantities
  mx and wsum taken over all keys, and since the denominator wsum + [wsum = 0] + ε is then a positive real, the
  output entry (each weight divided by the denominator, contracted with the value column) equals the weighted sum
  wacc over all keys divided once by that denominator.
-/
import proofs.«164388_j89481348645697_2_alg».proof.Proof.Spec
import proofs.«164388_j89481348645697_2_alg».proof.Proof.LibOnlineSoftmax

noncomputable section

namespace Cert.MaskedAttn

open Idealize.ShloMosaic Idealize.ShloMosaic.ValueIdx Cert.OnlineSoftmax
open scoped BigOperators

variable {Q K V : SQ.Idx → EReal} {R : SM.Idx → BitVec 32}

/-- A mask word that is the pattern 0 or 1 reads as the extended real 0 or 1. -/
theorem maskWord_cases (hD : Domain Q K V R) (b : Fin 8) (k : Fin 2048) :
    maskWord R b k = 0 ∨ maskWord R b k = 1 := by
  unfold maskWord
  rcases hD.bin (ix3 b k (0 : Fin 1)) with h | h <;> rw [h]
  · left
    have : (0#32).toInt = 0 := by decide
    rw [this]; simp
  · right
    have : (1#32).toInt = 1 := by decide
    rw [this]; simp

/-- A pair mask, the product of two mask words, is 0 or 1. -/
private theorem pairMask_cases (hD : Domain Q K V R) (b : Fin 8) (r k : Fin 2048) :
    pairMask R b r k = 0 ∨ pairMask R b r k = 1 := by
  unfold pairMask
  rcases maskWord_cases hD b r with h | h <;> rcases maskWord_cases hD b k with h' | h' <;> rw [h, h'] <;> simp

/-- A pair mask is finite. -/
theorem pairMask_finite (hD : Domain Q K V R) (b : Fin 8) (r k : Fin 2048) :
    pairMask R b r k ≠ ⊤ ∧ pairMask R b r k ≠ ⊥ := by
  rcases pairMask_cases hD b r k with h | h <;> rw [h]
  · exact ⟨EReal.zero_ne_top, EReal.zero_ne_bot⟩
  · exact ⟨EReal.coe_ne_top 1, EReal.coe_ne_bot 1⟩

/-- A pair mask is nonnegative. -/
theorem pairMask_nonneg (hD : Domain Q K V R) (b : Fin 8) (r k : Fin 2048) : 0 ≤ pairMask R b r k := by
  rcases pairMask_cases hD b r k with h | h <;> rw [h]
  exact zero_le_one

/-- The contraction of a real query row with a real key row is a real number. -/
private theorem rawScore_finite (hD : Domain Q K V R) (b : Fin 8) (r k : Fin 2048) :
    rawScore Q K b r k ≠ ⊤ ∧ rawScore Q K b r k ≠ ⊥ := by
  have hq : ∀ i, Q i = ((Q i).toReal : EReal) := fun i => (EReal.coe_toReal (hD.finQ i).1 (hD.finQ i).2).symm
  have hk : ∀ i, K i = ((K i).toReal : EReal) := fun i => (EReal.coe_toReal (hD.finK i).1 (hD.finK i).2).symm
  have : rawScore Q K b r k
      = ((∑ d : Fin 1024, (Q (ix3 b r d)).toReal * (K (ix3 b k d)).toReal : ℝ) : EReal) := by
    rw [← Cert.Lib.ERealSum.sum_coe_mul_coe]
    exact Finset.sum_congr rfl fun d _ => by rw [← hq, ← hk]
  rw [this]
  exact ⟨EReal.coe_ne_top _, EReal.coe_ne_bot _⟩

/-- A masked score is finite. -/
theorem score_finite (hD : Domain Q K V R) (b : Fin 8) (r k : Fin 2048) :
    score Q K R b r k ≠ ⊤ ∧ score Q K R b r k ≠ ⊥ := by
  unfold score
  rcases pairMask_cases hD b r k with h | h <;> rw [h]
  · rw [mul_zero]; exact ⟨EReal.zero_ne_top, EReal.zero_ne_bot⟩
  · rw [mul_one]; exact rawScore_finite hD b r k

/-- The constant of the denominator is a positive real. -/
private theorem eps_real : ∃ x : ℝ, 0 < x ∧ eps = (x : EReal) := by
  refine ⟨((2 ^ 23 + 0x3CE508 : ℕ) : ℝ) * (2 : ℝ) ^ ((60 : ℤ) - 127 - 23), by positivity, ?_⟩
  simp [eps, Ideal.ofBits, Ideal.ieee, -EReal.coe_mul]

/-- The constant of the denominator is positive. -/
theorem eps_pos : 0 < eps := by
  obtain ⟨x, hx, h⟩ := eps_real
  rw [h]; exact EReal.coe_pos.mpr hx

/-- The constant of the denominator is finite. -/
theorem eps_ne_top : eps ≠ ⊤ := by
  obtain ⟨x, _, h⟩ := eps_real
  rw [h]; exact EReal.coe_ne_top x

/-- The row maximum is the online maximum over all keys. -/
theorem rowMax_eq (b : Fin 8) (r : Fin 2048) : rowMax Q K R b r = mx (score Q K R b r) Finset.univ := rfl

/-- The row sum is the online sum of weights over all keys. -/
theorem rowSum_eq (b : Fin 8) (r : Fin 2048) :
    rowSum Q K R b r = wsum (score Q K R b r) (pairMask R b r) Finset.univ := rfl

/-- The output entry is the online weighted sum over all keys divided once by the guarded denominator. -/
theorem outEntry_eq (hD : Domain Q K V R) (b : Fin 8) (r : Fin 2048) (d : Fin 1024) :
    outEntry Q K V R b r d
      = Ideal.div (wacc (score Q K R b r) (pairMask R b r) (fun k => V (ix3 b k d)) Finset.univ)
          (wsum (score Q K R b r) (pairMask R b r) Finset.univ
            + (if wsum (score Q K R b r) (pairMask R b r) Finset.univ = 0 then (1 : EReal) else 0) + eps) :=
  (div_wacc (score Q K R b r) (pairMask R b r) (fun k => V (ix3 b k d)) (score_finite hD b r)
    (pairMask_finite hD b r) (fun k => hD.finV (ix3 b k d)) (pairMask_nonneg hD b r) Finset.univ eps eps_pos
    eps_ne_top).symm

end Cert.MaskedAttn

end
-- ==== Proof.StepOfReads.lean ====
/-
  One key tile's update of one row's three running quantities.

  A grid point holds row p of a query tile (query position r of batch b) and the 512 keys of key tile j.  Suppose the
  five loaded blocks hold what they should: the query row, the tile's keys and values, and the mask words of the row and
  of the tile's keys; and suppose the three running quantities of the row are the online maximum, sum of weights and
  weighted sum over the keys below 512·j.  Then the body's pair mask and masked score at column c are the
  specification's pair mask and score at key 512·j + c, so the tile's row maximum is the online maximum over tile j and
  the new running maximum is the online maximum over the keys below 512·(j + 1) (those below 512·j together with
  tile j).  The rescaling factor is exp(old maximum − new maximum) and the body's weights are taken relative to the new
  maximum, so the new running sum and the new accumulator are the rescaled old ones plus the tile's contributions:
  by the online update rule they are the sum of weights and the weighted sum over the keys below 512·(j + 1).
-/
import proofs.«164388_j89481348645697_2_alg».proof.Proof.Spec
import proofs.«164388_j89481348645697_2_alg».proof.Proof.GridPoint
import proofs.«164388_j89481348645697_2_alg».proof.Proof.TileSets
import proofs.«164388_j89481348645697_2_alg».proof.Proof.Payloads
import proofs.«164388_j89481348645697_2_alg».proof.Proof.LibOnlineSoftmax
import proofs.«164388_j89481348645697_2_alg».proof.Proof.RowFacts

noncomputable section

namespace Cert.KernelIdeal.Step

open Cert.KernelIdeal Cert.KernelIdeal.Gen Cert.KernelIdeal.Grid Cert.KernelIdeal.Pay Cert.MaskedAttn Cert.OnlineSoftmax
  Idealize.ShloMosaic Idealize.ShloMosaic.ValueIdx

/-- One key tile's update: from the online quantities over the keys below 512·j to those over the keys below
    512·(j + 1), for the running maximum, the running sum of weights and the accumulator at every feature. -/
theorem step_of_reads {Q K V : SQ.Idx → EReal} {R : SM.Idx → BitVec 32} (hD : Domain Q K V R)
    (b : Fin 8) (r : Fin 2048) (j : ℕ) (hj : j < 4) (p : Fin 1024)
    (x0 : Vec Ideal S1x1024x1024 .f32) (x1 x2 : Vec Ideal S1x512x1024 .f32) (x3 : Vec Ideal S1x1024x1 .i32)
    (x4 : Vec Ideal S1x1x512 .i32)
    (h0 : ∀ d : Fin 1024, x0 (ix3 (0 : Fin 1) p d) = Q (ix3 b r d))
    (h1 : ∀ (cc : Fin 512) (d : Fin 1024), x1 (ix3 (0 : Fin 1) cc d) = K (ix3 b (keyAt j hj cc) d))
    (h2 : ∀ (cc : Fin 512) (d : Fin 1024), x2 (ix3 (0 : Fin 1) cc d) = V (ix3 b (keyAt j hj cc) d))
    (h3 : x3 (ix3 (0 : Fin 1) p (0 : Fin 1)) = R (ix3 b r (0 : Fin 1)))
    (h4 : ∀ cc : Fin 512, x4 (ix3 (0 : Fin 1) (0 : Fin 1) cc) = R (ix3 b (keyAt j hj cc) (0 : Fin 1)))
    (mo lo : Vec Ideal S1024x1 .f32) (ao : Vec Ideal S1024x1024 .f32)
    (hm : mo (ix2 p (0 : Fin 1)) = mx (score Q K R b r) (below (512 * j)))
    (hl : lo (ix2 p (0 : Fin 1)) = wsum (score Q K R b r) (pairMask R b r) (below (512 * j)))
    (ha : ∀ d : Fin 1024, ao (ix2 p d)
      = wacc (score Q K R b r) (pairMask R b r) (fun k => V (ix3 b k d)) (below (512 * j))) :
    k0_pay11 (F := Ideal) x0 x1 x3 x4 mo (ix2 p (0 : Fin 1)) = mx (score Q K R b r) (below (512 * (j + 1)))
    ∧ k0_pay1 (F := Ideal) (k0_pay12 (F := Ideal) x0 x1 x3 x4 mo mo) (k0_pay13 (F := Ideal) x0 x1 x3 x4 mo) lo
          (ix2 p (0 : Fin 1))
        = wsum (score Q K R b r) (pairMask R b r) (below (512 * (j + 1)))
    ∧ ∀ d : Fin 1024,
        k0_pay2 (F := Ideal) (k0_pay8 (F := Ideal) x2) (k0_pay12 (F := Ideal) x0 x1 x3 x4 mo mo)
            (k0_pay13 (F := Ideal) x0 x1 x3 x4 mo) ao (ix2 p d)
          = wacc (score Q K R b r) (pairMask R b r) (fun k => V (ix3 b k d)) (below (512 * (j + 1))) := by
  -- the body's pair mask at column cc is the specification's pair mask at key 512·j + cc
  have e9 : ∀ cc : Fin 512, k0_pay9 (F := Ideal) x3 x4 (ix2 p cc) = pairMask R b r (keyAt j hj cc) := by
    intro cc
    rw [pay9_apply, h3, h4 cc]
    rfl
  -- the body's masked score at column cc is the specification's score at key 512·j + cc
  have e10 : ∀ cc : Fin 512, k0_pay10 (F := Ideal) x0 x1 x3 x4 (ix2 p cc) = score Q K R b r (keyAt j hj cc) := by
    intro cc
    rw [pay10_apply, e9 cc]
    unfold score rawScore
    congr 1
    exact Finset.sum_congr rfl fun d _ => by rw [h0 d, h1 cc d]
  -- the new running maximum: max (old maximum) (maximum over tile j) = maximum over the keys below 512·(j + 1)
  have e11 : k0_pay11 (F := Ideal) x0 x1 x3 x4 mo (ix2 p (0 : Fin 1))
      = mx (score Q K R b r) (below (512 * (j + 1))) := by
    rw [pay11_apply, hm, below_succ_tile j, mx_union _ _ _ (disjoint_below_tile j)]
    congr 1
    have ht := fold_max_tile j hj (score Q K R b r)
    show _ = (tile j).fold max ⊥ (score Q K R b r)
    rw [ht]
    exact congrArg (fun f => Finset.fold max ⊥ f Finset.univ) (funext fun cc => e10 cc)
  refine ⟨e11, ?_, ?_⟩
  · -- the running sum: factor · old sum + the tile's weights, by the online update rule
    have hu := wsum_union (score Q K R b r) (pairMask R b r) (score_finite hD b r) (pairMask_finite hD b r)
      (below (512 * j)) (tile j) (disjoint_below_tile j) (tile_nonempty j hj)
    rw [← below_succ_tile j] at hu
    rw [pay1_apply, pay12_apply, e11, hm, hl, hu, sum_tile j hj]
    congr 1
    exact Finset.sum_congr rfl fun cc _ => by rw [pay13_apply, e10 cc, e11, e9 cc]
  · -- the accumulator: factor · old accumulator + the tile's weights contracted with the values
    intro d
    have hu := wacc_union (score Q K R b r) (pairMask R b r) (fun k => V (ix3 b k d)) (score_finite hD b r)
      (pairMask_finite hD b r) (fun k => hD.finV (ix3 b k d)) (below (512 * j)) (tile j) (disjoint_below_tile j)
      (tile_nonempty j hj)
    rw [← below_succ_tile j] at hu
    rw [pay2_apply, pay12_apply, e11, hm, ha d, hu, sum_tile j hj]
    congr 1
    exact Finset.sum_congr rfl fun cc _ => by rw [pay13_apply, e10 cc, e11, e9 cc, pay8_apply, h2 cc d]

end Cert.KernelIdeal.Step

end
-- ==== Proof.Cover.lean ====
/-
  From the 16 write-backs of the output to the whole result array.

  The output array [8, 2048, 1024] is written back in blocks [1, 1024, 1024]: the grid point t writes block
  (t / 8, (t / 4) mod 2, 0), and only the points with t mod 4 = 3, the last key tile of each query tile, write back.
  Entry (0, p, d) of the block of point t is entry (t / 8, 1024·((t / 4) mod 2) + p, d) of the array: a block's
  coordinate is the block index times the block's extent plus the coordinate inside the block. Every entry (b, r, d)
  of the array lies in the block of the writing point 8·b + 4·(r / 1024) + 3. So when what every writing point writes
  is its block of one array G, the array ends holding G.
-/
import proofs.«164388_j89481348645697_2_alg».proof.Proof.GridPoint
import proofs.«164388_j89481348645697_2_alg».proof.Proof.Gen.KernelIdeal.Value
import Idealize.ShloMosaic.Lib.Pipeline.Value
import Idealize.ShloMosaic.Lib.ValueIdx

noncomputable section

namespace Cert.KernelIdeal.Cover

open Cert.KernelIdeal Cert.KernelIdeal.Gen Cert.KernelIdeal.Grid Idealize.ShloMosaic Idealize.ShloMosaic.ValueIdx
  Idealize.ShloMosaic.TcCoe

/-- The output window's block index at point t, decided over the 64 points: (t / 8, (t / 4) mod 2, 0). -/
theorem idx_facts5 : ∀ t : Fin cfg0.N, win0_5.index t (0 : Fin 3) = t.val / 8
    ∧ win0_5.index t (1 : Fin 3) = t.val / 4 % 2 ∧ win0_5.index t (2 : Fin 3) = 0 :=
  (by decide +kernel : ∀ t : Fin grid0.N, _)

/-- Entry (0, p, d) of the output block of point t is entry (t / 8, 1024·((t / 4) mod 2) + p, d) of the array. -/
theorem emb5 (t : Fin cfg0.N) (p : Fin 1024) (d : Fin 1024) :
    ((cfg0.win 5).blk t).view.emb (ix3 (0 : Fin 1) p d) = ix3 (bOf t) (rowOf t p) d := by
  obtain ⟨e0, e1, e2⟩ := idx_facts5 t
  funext a
  apply Fin.ext
  match a with
  | ⟨0, _⟩ => show win0_5.index t (0 : Fin 3) * 1 + 1 * 0 = t.val / 8; rw [e0]; omega
  | ⟨1, _⟩ => show win0_5.index t (1 : Fin 3) * 1024 + 1 * p.val = 1024 * (t.val / 4 % 2) + p.val; rw [e1]; omega
  | ⟨2, _⟩ => show win0_5.index t (2 : Fin 3) * 1024 + 1 * d.val = d.val; rw [e2]; omega

/-- WHAT A WRITING POINT WRITES BACK is its block of G, when the staging buffer holds there the block's entries of G. -/
theorem flushed_eq (m : (ℓ : Loc nD τ sig) → Buf (Elt Ideal) ℓ) (c : Dev nD) (G : S8x2048x1024.Idx → EReal)
    (h : ∀ t : Fin cfg0.N, t.val % 4 = 3 → ∀ (p : Fin 1024) (d : Fin 1024),
        ((outsAt0 m c t.val t.isLt).1 : Vec Ideal S1x1024x1024 .f32) (ix3 (0 : Fin 1) p d) = G (ix3 (bOf t) (rowOf t p) d))
    (t : Fin cfg0.N) (hf : (cfg0.win 5).flush t = true) :
    (dats m 0 c).flushed 5 t = ((cfg0.win 5).blk t).view.read (Elt Ideal) G := by
  have h3 : t.val % 4 = 3 := (flush0_5 t).mp hf
  rw [Value.flushed5]
  funext j
  obtain ⟨u, p, d, rfl⟩ : ∃ (u : Fin 1) (p : Fin 1024) (d : Fin 1024), j = ix3 u p d := ⟨j 0, j 1, j 2, eq_ix3 j⟩
  obtain rfl : u = 0 := Fin.ext (by have := u.isLt; omega)
  rw [View.read_apply]
  show ((outsAt0 m c t.val t.isLt).1 : Vec Ideal S1x1024x1024 .f32) (ix3 (0 : Fin 1) p d)
    = G (((cfg0.win 5).blk t).view.emb (ix3 (0 : Fin 1) p d))
  rw [h t h3 p d, emb5 t p d]

/-- An entry of the array is in point t's block iff each coordinate is in the block's range on its axis. -/
theorem mem_blk5 (t : Fin cfg0.N) (i : S8x2048x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v1).slice (win0_5.rect t)).set ↔ _
  rw [View.set_slice_whole, Rect.mem_set_unit]
  exact Iff.rfl

/-- THE WHOLE RESULT ARRAY: every entry (b, r, d) lies in the block of the writing point 8·b + 4·(r / 1024) + 3, so the
    array ends holding G. -/
theorem final5 (m : (ℓ : Loc nD τ sig) → Buf (Elt Ideal) ℓ) (c : Dev nD) (G : S8x2048x1024.Idx → EReal)
    (h : ∀ t : Fin cfg0.N, t.val % 4 = 3 → ∀ (p : Fin 1024) (d : Fin 1024),
        ((outsAt0 m c t.val t.isLt).1 : Vec Ideal S1x1024x1024 .f32) (ix3 (0 : Fin 1) p d) = G (ix3 (bOf t) (rowOf t p) d)) :
    (dats m 0 c).arrAt 5 cfg0.N = G := by
  refine (dats m 0 c).arrAt_eq_of_cover 5 G (flushed_eq m c G h) fun i => ?_
  obtain ⟨b, r, d, rfl⟩ : ∃ (b : Fin 8) (r : Fin 2048) (d : Fin 1024), (i : S8x2048x1024.Idx) = ix3 b r d :=
    ⟨i 0, i 1, i 2, eq_ix3 i⟩
  have hN : cfg0.N = 64 := N_0
  have hb := b.isLt
  have hr := r.isLt
  have hd := d.isLt
  obtain ⟨t, ht⟩ : ∃ t : Fin cfg0.N, t.val = 8 * b.val + 4 * (r.val / 1024) + 3 :=
    ⟨⟨8 * b.val + 4 * (r.val / 1024) + 3, by rw [hN]; omega⟩, rfl⟩
  obtain ⟨e0, e1, e2⟩ := idx_facts5 t
  refine ⟨t, (flush0_5 t).mpr (by omega), ?_⟩
  rw [mem_blk5]
  intro a
  match a with
  | ⟨0, _⟩ =>
    show win0_5.index t (0 : Fin 3) * 1 ≤ b.val ∧ b.val < win0_5.index t (0 : Fin 3) * 1 + 1
    rw [e0]; omega
  | ⟨1, _⟩ =>
    show win0_5.index t (1 : Fin 3) * 1024 ≤ r.val ∧ r.val < win0_5.index t (1 : Fin 3) * 1024 + 1024
    rw [e1]; omega
  | ⟨2, _⟩ =>
    show win0_5.index t (2 : Fin 3) * 1024 ≤ d.val ∧ d.val < win0_5.index t (2 : Fin 3) * 1024 + 1024
    rw [e2]; omega

end Cert.KernelIdeal.Cover

end
-- ==== Proof.Invariant.lean ====
/-
  What the three running quantities hold after every grid point, and the result array.

  Fix a device and a memory whose four argument arrays satisfy the precondition's plain facts. For a grid point t (batch b,
  query tile, key tile j) and a row p of the query tile (query position r), after the point the running maximum of row p is
  the maximum of the masked scores of row r over the keys below 512·(j + 1), the running sum is the sum of the masked weights
  over those keys relative to that maximum, and the accumulator at feature d is the weighted sum of the value column d over
  those keys. At a point of the first key tile the old quantities are the reset values −∞, 0, 0, which are the same three
  quantities over no keys at all; at the other points they are what the point before left. At the last key tile the keys
  seen are all 2048, and the output block is the accumulator over the guarded denominator, which is the specification's
  output entry. The 16 output blocks written back tile the result array.
-/
import proofs.«164388_j89481348645697_2_alg».proof.Proof.Spec
import proofs.«164388_j89481348645697_2_alg».proof.Proof.GridPoint
import proofs.«164388_j89481348645697_2_alg».proof.Proof.TileSets
import proofs.«164388_j89481348645697_2_alg».proof.Proof.Payloads
import proofs.«164388_j89481348645697_2_alg».proof.Proof.Pieces
import proofs.«164388_j89481348645697_2_alg».proof.Proof.BlockReads
import proofs.«164388_j89481348645697_2_alg».proof.Proof.LibOnlineSoftmax
import proofs.«164388_j89481348645697_2_alg».proof.Proof.RowFacts
import proofs.«164388_j89481348645697_2_alg».proof.Proof.StepOfReads
import proofs.«164388_j89481348645697_2_alg».proof.Proof.Gen.KernelIdeal.Value
import proofs.«164388_j89481348645697_2_alg».proof.Proof.Cover

noncomputable section

namespace Cert.KernelIdeal.Inv

open Cert.KernelIdeal Cert.KernelIdeal.Gen Cert.KernelIdeal.Grid Cert.KernelIdeal.Pay Cert.MaskedAttn Cert.OnlineSoftmax
open Idealize.ShloMosaic Idealize.ShloMosaic.ValueIdx Idealize.ShloMosaic.TcCoe Idealize.SL.Sem

variable (m : (ℓ : Loc nD τ sig) → Buf (Elt Ideal) ℓ) (c : Dev nD)

/-- The queries, keys, values and mask words of device `c`. -/
abbrev aQ : SQ.Idx → EReal := m ((c : Thread nD τ).loc main_arg0)
abbrev aK : SQ.Idx → EReal := m ((c : Thread nD τ).loc main_arg1)
abbrev aV : SQ.Idx → EReal := m ((c : Thread nD τ).loc main_arg2)
abbrev aR : SM.Idx → BitVec 32 := m ((c : Thread nD τ).loc main_arg3)

/-- The masked scores, the pair masks and a value column of the row that row `p` of point `t`'s query tile is. -/
abbrev sRow (t : Fin cfg0.N) (p : Fin 1024) : Fin 2048 → EReal := score (aQ m c) (aK m c) (aR m c) (bOf t) (rowOf t p)
abbrev muRow (t : Fin cfg0.N) (p : Fin 1024) : Fin 2048 → EReal := pairMask (aR m c) (bOf t) (rowOf t p)
abbrev vCol (t : Fin cfg0.N) (d : Fin 1024) : Fin 2048 → EReal := fun k => aV m c (ix3 (bOf t) k d)

/-- The five blocks a point loads: the query tile, the key tile, the value tile, the query-side and the key-side mask words. -/
def qB (t : Fin cfg0.N) : Vec Ideal S1x1024x1024 .f32 := iblk m c 0 t
def kB (t : Fin cfg0.N) : Vec Ideal S1x512x1024 .f32 := iblk m c 1 t
def vB (t : Fin cfg0.N) : Vec Ideal S1x512x1024 .f32 := iblk m c 2 t
def rB (t : Fin cfg0.N) : Vec Ideal S1x1024x1 .i32 := iblk m c 3 t
def cB (t : Fin cfg0.N) : Vec Ideal S1x1x512 .i32 := iblk m c 4 t

/-- What the point before `t` left. -/
def prevOf (t : Fin cfg0.N) : Vec Ideal S1x1024x1024 .f32 × Vec Ideal S1024x1 .f32 × Vec Ideal S1024x1 .f32 × Vec Ideal S1024x1024 .f32 :=
  outsAt0 m c (t.val - 1) (Nat.lt_of_le_of_lt (Nat.sub_le _ _) t.isLt)

/-- The three updates of a point, as the body's terms of its blocks and of the old maximum, sum and accumulator. -/
def newMax (t : Fin cfg0.N) (mo : Vec Ideal S1024x1 .f32) : FVec Ideal S1024x1 .f32 :=
  k0_pay11 (F := Ideal) (qB m c t) (kB m c t) (rB m c t) (cB m c t) mo
def newSum (t : Fin cfg0.N) (mo lo : Vec Ideal S1024x1 .f32) : FVec Ideal S1024x1 .f32 :=
  k0_pay1 (F := Ideal) (k0_pay12 (F := Ideal) (qB m c t) (kB m c t) (rB m c t) (cB m c t) mo mo)
    (k0_pay13 (F := Ideal) (qB m c t) (kB m c t) (rB m c t) (cB m c t) mo) lo
def newAcc (t : Fin cfg0.N) (mo : Vec Ideal S1024x1 .f32) (ao : Vec Ideal S1024x1024 .f32) : FVec Ideal S1024x1024 .f32 :=
  k0_pay2 (F := Ideal) (k0_pay8 (F := Ideal) (vB m c t)) (k0_pay12 (F := Ideal) (qB m c t) (kB m c t) (rB m c t) (cB m c t) mo mo)
    (k0_pay13 (F := Ideal) (qB m c t) (kB m c t) (rB m c t) (cB m c t) mo) ao

/-! ## What each point leaves, as the body's terms of its blocks and of what the point before left -/

set_option maxHeartbeats 1000000 in
/-- A point of the first key tile: the update applied to the reset values. -/
theorem outs_first (t : Fin cfg0.N) (h0 : t.val % 4 = 0) (h1 : ¬t.val % 4 = 3) :
    (outsAt0 m c t.val t.isLt).2.1 = newMax m c t (k0_pay5 (F := Ideal))
    ∧ (outsAt0 m c t.val t.isLt).2.2.1 = newSum m c t (k0_pay5 (F := Ideal)) (k0_pay6 (F := Ideal))
    ∧ (outsAt0 m c t.val t.isLt).2.2.2 = newAcc m c t (k0_pay5 (F := Ideal)) (k0_pay7 (F := Ideal)) := by
  rw [outsAt0_A m c t h0 h1]
  dsimp only
  have e0 := Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  have e1 := Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  have e2 := Pieces.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  exact ⟨e0.trans (pay3_eq _), e1, e2⟩

set_option maxHeartbeats 1000000 in
/-- A point of a later key tile: the update applied to what the point before left. -/
theorem outs_later (t : Fin cfg0.N) (h0 : ¬t.val % 4 = 0) :
    (outsAt0 m c t.val t.isLt).2.1 = newMax m c t (prevOf m c t).2.1
    ∧ (outsAt0 m c t.val t.isLt).2.2.1 = newSum m c t (prevOf m c t).2.1 (prevOf m c t).2.2.1
    ∧ (outsAt0 m c t.val t.isLt).2.2.2 = newAcc m c t (prevOf m c t).2.1 (prevOf m c t).2.2.2 := by
  by_cases h1 : t.val % 4 = 3
  · rw [outsAt0_C m c t h0 h1]
    dsimp only
    have e0 := Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    have e1 := Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    have e2 := Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    exact ⟨e0.trans (pay3_eq _), e1, e2⟩
  · rw [outsAt0_B m c t h0 h1]
    dsimp only
    have e0 := Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    have e1 := Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    have e2 := Pieces.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    exact ⟨e0.trans (pay3_eq _), e1, e2⟩

set_option maxHeartbeats 1000000 in
/-- A point of the last key tile also stores the output block: the quotient formed from the sum and the accumulator it has
    just stored. -/
theorem out_last (t : Fin cfg0.N) (h0 : ¬t.val % 4 = 0) (h1 : t.val % 4 = 3) :
    (outsAt0 m c t.val t.isLt).1
      = k0_pay4 (F := Ideal) (outsAt0 m c t.val t.isLt).2.2.1 (outsAt0 m c t.val t.isLt).2.2.2 := by
  rw [outsAt0_C m c t h0 h1]
  dsimp only
  have e5 := Pieces.out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have e1 := Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have e2 := Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  rw [e5, e1, e2]

/-! ## One point's update of one row, in the specification's terms -/

/-- The update of row `p` at point `t`: from the three quantities over the keys below the point's tile to those over the keys
    through it, the blocks read off the argument arrays. -/
theorem step_at (hD : Domain (aQ m c) (aK m c) (aV m c) (aR m c)) (t : Fin cfg0.N) (p : Fin 1024)
    (mo lo : Vec Ideal S1024x1 .f32) (ao : Vec Ideal S1024x1024 .f32)
    (hm : mo (ix2 p (0 : Fin 1)) = mx (sRow m c t p) (below (512 * (t.val % 4))))
    (hl : lo (ix2 p (0 : Fin 1)) = wsum (sRow m c t p) (muRow m c t p) (below (512 * (t.val % 4))))
    (ha : ∀ d : Fin 1024, ao (ix2 p d) = wacc (sRow m c t p) (muRow m c t p) (vCol m c t d) (below (512 * (t.val % 4)))) :
    newMax m c t mo (ix2 p (0 : Fin 1)) = mx (sRow m c t p) (below (512 * (t.val % 4 + 1)))
    ∧ newSum m c t mo lo (ix2 p (0 : Fin 1)) = wsum (sRow m c t p) (muRow m c t p) (below (512 * (t.val % 4 + 1)))
    ∧ ∀ d : Fin 1024, newAcc m c t mo ao (ix2 p d)
        = wacc (sRow m c t p) (muRow m c t p) (vCol m c t d) (below (512 * (t.val % 4 + 1))) :=
  Step.step_of_reads hD (bOf t) (rowOf t p) (t.val % 4) (Nat.mod_lt _ (by decide)) p
    (qB m c t) (kB m c t) (vB m c t) (rB m c t) (cB m c t)
    (fun d => Blocks.iblk0_apply m c t p d) (fun cc d => Blocks.iblk1_apply m c t cc d) (fun cc d => Blocks.iblk2_apply m c t cc d)
    (Blocks.iblk3_apply m c t p) (fun cc => Blocks.iblk4_apply m c t cc) mo lo ao hm hl ha

/-! ## The invariant -/

/-- After point `t`, row `p`'s running maximum, sum and accumulator are the three quantities over the keys through the
    point's tile. -/
def Holds (t : Fin cfg0.N) : Prop :=
  ∀ p : Fin 1024,
    (outsAt0 m c t.val t.isLt).2.1 (ix2 p (0 : Fin 1)) = mx (sRow m c t p) (below (512 * (t.val % 4 + 1)))
    ∧ (outsAt0 m c t.val t.isLt).2.2.1 (ix2 p (0 : Fin 1)) = wsum (sRow m c t p) (muRow m c t p) (below (512 * (t.val % 4 + 1)))
    ∧ ∀ d : Fin 1024, (outsAt0 m c t.val t.isLt).2.2.2 (ix2 p d)
        = wacc (sRow m c t p) (muRow m c t p) (vCol m c t d) (below (512 * (t.val % 4 + 1)))

/-- Within a run of four key tiles the batch and the query tile do not change. -/
theorem bOf_pred (n : ℕ) (hn : n + 1 < cfg0.N) (h0 : ¬(n + 1) % 4 = 0) :
    bOf ⟨n, Nat.lt_of_succ_lt hn⟩ = bOf ⟨n + 1, hn⟩ :=
  Fin.ext (by show n / 8 = (n + 1) / 8; omega)

theorem rowOf_pred (n : ℕ) (hn : n + 1 < cfg0.N) (h0 : ¬(n + 1) % 4 = 0) (p : Fin 1024) :
    rowOf ⟨n, Nat.lt_of_succ_lt hn⟩ p = rowOf ⟨n + 1, hn⟩ p :=
  Fin.ext (by show 1024 * (n / 4 % 2) + p.val = 1024 * ((n + 1) / 4 % 2) + p.val; omega)

/-- At a point of the first key tile: the reset values are the three quantities over no keys. -/
theorem holds_first (hD : Domain (aQ m c) (aK m c) (aV m c) (aR m c)) (t : Fin cfg0.N) (h0 : t.val % 4 = 0) : Holds m c t := by
  intro p
  obtain ⟨e1, e2, e3⟩ := outs_first m c t h0 (by omega)
  have hz : below (512 * (t.val % 4)) = ∅ := by rw [h0, Nat.mul_zero, below_zero]
  obtain ⟨s1, s2, s3⟩ := step_at m c hD t p (k0_pay5 (F := Ideal)) (k0_pay6 (F := Ideal)) (k0_pay7 (F := Ideal))
    (by rw [hz, mx_empty]; exact pay5_apply _)
    (by rw [hz, wsum_empty]; exact pay6_apply _)
    (fun d => by rw [hz, wacc_empty]; exact pay7_apply _)
  exact ⟨(congrFun e1 _).trans s1, (congrFun e2 _).trans s2, fun d => (congrFun e3 _).trans (s3 d)⟩

/-- At a point of a later key tile: the point before left the three quantities of the same row over the keys below the tile. -/
theorem holds_later (hD : Domain (aQ m c) (aK m c) (aV m c) (aR m c)) (n : ℕ) (hn : n + 1 < cfg0.N) (h0 : ¬(n + 1) % 4 = 0)
    (ih : Holds m c ⟨n, Nat.lt_of_succ_lt hn⟩) : Holds m c ⟨n + 1, hn⟩ := by
  intro p
  obtain ⟨e1, e2, e3⟩ := outs_later m c ⟨n + 1, hn⟩ h0
  obtain ⟨i1, i2, i3⟩ := ih p
  have hb := bOf_pred n hn h0
  have hr := rowOf_pred n hn h0 p
  have hk : n % 4 + 1 = (n + 1) % 4 := by omega
  have hp : prevOf m c ⟨n + 1, hn⟩ = outsAt0 m c n (Nat.lt_of_succ_lt hn) := rfl
  obtain ⟨s1, s2, s3⟩ := step_at m c hD ⟨n + 1, hn⟩ p
    (prevOf m c ⟨n + 1, hn⟩).2.1 (prevOf m c ⟨n + 1, hn⟩).2.2.1 (prevOf m c ⟨n + 1, hn⟩).2.2.2
    (by rw [hp]
        show _ = mx (score (aQ m c) (aK m c) (aR m c) (bOf ⟨n + 1, hn⟩) (rowOf ⟨n + 1, hn⟩ p)) (below (512 * ((n + 1) % 4)))
        rw [← hb, ← hr, ← hk]; exact i1)
    (by rw [hp]
        show _ = wsum (score (aQ m c) (aK m c) (aR m c) (bOf ⟨n + 1, hn⟩) (rowOf ⟨n + 1, hn⟩ p))
          (pairMask (aR m c) (bOf ⟨n + 1, hn⟩) (rowOf ⟨n + 1, hn⟩ p)) (below (512 * ((n + 1) % 4)))
        rw [← hb, ← hr, ← hk]; exact i2)
    (fun d => by
        rw [hp]
        show _ = wacc (score (aQ m c) (aK m c) (aR m c) (bOf ⟨n + 1, hn⟩) (rowOf ⟨n + 1, hn⟩ p))
          (pairMask (aR m c) (bOf ⟨n + 1, hn⟩) (rowOf ⟨n + 1, hn⟩ p)) (fun k => aV m c (ix3 (bOf ⟨n + 1, hn⟩) k d)) (below (512 * ((n + 1) % 4)))
        rw [← hb, ← hr, ← hk]; exact i3 d)
  exact ⟨(congrFun e1 _).trans s1, (congrFun e2 _).trans s2, fun d => (congrFun e3 _).trans (s3 d)⟩

/-- The invariant holds after every point. -/
theorem holds (hD : Domain (aQ m c) (aK m c) (aV m c) (aR m c)) : ∀ (n : ℕ) (hn : n < cfg0.N), Holds m c ⟨n, hn⟩ := by
  intro n
  induction n with
  | zero => intro hn; exact holds_first m c hD ⟨0, hn⟩ rfl
  | succ n ih =>
    intro hn
    by_cases h0 : (n + 1) % 4 = 0
    · exact holds_first m c hD ⟨n + 1, hn⟩ h0
    · exact holds_later m c hD n hn h0 (ih (Nat.lt_of_succ_lt hn))

/-! ## The output block and the result array -/

/-- At a point of the last key tile the stored output block holds, at row `p` and feature `d`, the specification's entry:
    all 2048 keys have been seen, and the accumulator over the guarded denominator is the entry with every weight divided
    first. -/
theorem out_entry (hD : Domain (aQ m c) (aK m c) (aV m c) (aR m c)) (t : Fin cfg0.N) (h3 : t.val % 4 = 3) (p : Fin 1024) (d : Fin 1024) :
    ((outsAt0 m c t.val t.isLt).1 : Vec Ideal S1x1024x1024 .f32) (ix3 (0 : Fin 1) p d)
      = result (aQ m c) (aK m c) (aV m c) (aR m c) (ix3 (bOf t) (rowOf t p) d) := by
  obtain ⟨i1, i2, i3⟩ := holds m c hD t.val t.isLt p
  have hall : below (512 * (t.val % 4 + 1)) = Finset.univ := by rw [h3]; exact below_all
  rw [hall] at i2 i3
  rw [result_ix3, outEntry_eq hD, out_last m c t (by omega) h3, pay4_apply, i2, i3 d]
  rfl

/-- After the run the result array holds the specification's result of the four argument arrays: the 16 output blocks written
    back tile it. -/
theorem final (hD : Domain (aQ m c) (aK m c) (aV m c) (aR m c)) :
    (dats m 0 c).arrAt 5 cfg0.N = result (aQ m c) (aK m c) (aV m c) (aR m c) :=
  Cover.final5 m c (result (aQ m c) (aK m c) (aV m c) (aR m c)) fun t h3 p d => out_entry m c hD t h3 p d

end Cert.KernelIdeal.Inv

end
-- ==== Proof.lean ====
/-
  The five claims of this certificate, assembled.

  Both programs compute ONE function of the queries `q`, keys `k`, values `v` (f32[8, 2048, 1024] each) and the mask
  words `r` (i32[8, 2048, 1]): a masked attention. With `mask(i, j) = r i · r j` (as floats),
      scores   s(i, j) = (Σ_d q(i, d) · k(j, d)) · mask(i, j)
      weights  p(i, j) = exp(s(i, j) − max_j s(i, j)) · mask(i, j)
      output   o(i, d) = Σ_j (p(i, j) / (l(i) + [l(i) = 0] + ε)) · v(j, d),     l(i) = Σ_j p(i, j),
  batch by batch (`Cert.MaskedAttn.result`, Proof/Spec.lean). The reference computes it in that order, the whole row of
  2048 keys at once, dividing the weights before the contraction with the values. The kernel computes it over four tiles
  of 512 keys with a running row maximum `m`, a running row sum `l` and a running accumulator `acc` carried from tile to
  tile — `m' = max(m, rowmax s)`, `l' = exp(m − m') · l + rowsum p`, `acc' = exp(m − m') · acc + p · v` — and divides
  once, after the last tile: `o = acc / (l + [l = 0] + ε)`.

  The law that joins them, at the ideal instance (floats are extended reals, operations exact):
   * rescaling by `exp(m − m')` is exact on finite reals — `exp(s − m) · exp(m − m') = exp(s − m')` —, so after the
     last tile `l` and `acc` are the whole row's sum and contraction taken against the whole row's maximum;
   * dividing after the contraction equals dividing before it, `(Σ_j p_j · v_j) / D = Σ_j (p_j / D) · v_j`, because the
     denominator `D = l + [l = 0] + ε` is a positive real: the weights are nonnegative reals when the mask words are
     0 or 1 and the scores are real.
  The precondition is used exactly there: it says that every entry of `q`, `k`, `v` is a real number (no infinity, no
  NaN) and that every mask word is 0 or 1 (`Cert.MaskedAttn.domain_of_pre`), which is what makes the scores, maxima, sums
  and the denominator real, so that the extended reals' arithmetic is the reals' there.

  Here: the two kernel programs' frames are the generated frame runs; the reference's frame is its generated run, forgetting
  the result; the idealization rewrote no operation, so nothing is to be preserved; and the algebraic claim states both
  runs' results as the SAME specification term of the argument arrays — the kernel's result array after its 64 grid
  points (`Cert.KernelIdeal.Inv.final`), the reference's composed term (`Cert.ReferenceIdeal.RefValue.val_eq_result`),
  read at arguments that agree.
-/
import proofs.«164388_j89481348645697_2_alg».proof.Defs
import proofs.«164388_j89481348645697_2_alg».proof.Proof.Gen.Kernel
import proofs.«164388_j89481348645697_2_alg».proof.Proof.Gen.Kernel.Skeleton
import proofs.«164388_j89481348645697_2_alg».proof.Proof.Gen.Kernel.Launch
import proofs.«164388_j89481348645697_2_alg».proof.Proof.Gen.Kernel.Points
import proofs.«164388_j89481348645697_2_alg».proof.Proof.Gen.Kernel.Frame
import proofs.«164388_j89481348645697_2_alg».proof.Proof.Gen.KernelIdeal
import proofs.«164388_j89481348645697_2_alg».proof.Proof.Gen.KernelIdeal.Skeleton
import proofs.«164388_j89481348645697_2_alg».proof.Proof.Gen.KernelIdeal.Launch
import proofs.«164388_j89481348645697_2_alg».proof.Proof.Gen.KernelIdeal.Points
import proofs.«164388_j89481348645697_2_alg».proof.Proof.Gen.KernelIdeal.Frame
import proofs.«164388_j89481348645697_2_alg».proof.Proof.Gen.ReferenceIdeal
import proofs.«164388_j89481348645697_2_alg».proof.Proof.Gen.Pre_finite_inputs
import proofs.«164388_j89481348645697_2_alg».proof.Proof.Gen.KernelIdeal.Value
import proofs.«164388_j89481348645697_2_alg».proof.Proof.Gen.ReferenceIdeal.Read
import proofs.«164388_j89481348645697_2_alg».proof.Proof.RefValue
import proofs.«164388_j89481348645697_2_alg».proof.Proof.DomainOfPre
import proofs.«164388_j89481348645697_2_alg».proof.Proof.Invariant
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does its reading at the ideal instance. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from arguments that agree and that the precondition makes real (mask words 0 or 1), both
    programs end with the masked attention of the arguments: the kernel's result array after the last grid point is the
    specification's result (the running maximum, sum and accumulator telescoped, then the one division), the reference's
    composed term is the same result, and the arguments are unchanged on both sides. -/
theorem algebraic : Cert.algebraic_KernelIdeal_ReferenceIdeal := fun m ρ m' ρ' hpre hagree =>
  ⟨fun c => Cert.MaskedAttn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono
      (fun r h c => ⟨(h c).1.trans (Cert.KernelIdeal.Inv.final m c (Cert.MaskedAttn.domain_of_pre _ _ _ _ (hpre c))), (h c).2⟩)
      (Cert.KernelIdeal.Value.run_blocks (F := Ideal) m ρ),
    (θ_run Cert.ReferenceIdeal.defs _ _).mono
      (fun _ h c => ⟨by
        rw [(h c).1, Cert.ReferenceIdeal.Read.val_main_v23_eq, Cert.ReferenceIdeal.RefValue.val_eq_result,
          (hagree c).1, (hagree c).2.1, (hagree c).2.2.1, (hagree c).2.2.2], (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
